-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S5 .f32) (main_v13 : IVec S_ 1) (main_v16 : IVec S256x5 1) : IVec S_ 1 :=
  let main_c_5 : IVec S_ 1 := constantI S_ 1 1#1
  let main_v17 : IVec S_ 1 := (fun x v => Host.reduce IntOp.andi x v reducesTo_S256x5_S_d0_1 h_S_) main_v16 main_c_5
  let main_v18 : IVec S_ 1 := andi main_v13 main_v17
  let main_v19 : FVec F S5 .f32 := Host.absf main_arg6
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x200000 32) (main_arg3 : FVec F S128x128 .f32) (main_arg4 : FVec F S128 .f32) (main_arg5 : FVec F S256x5 .f32) (main_arg6 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x5 .f32 := Host.absf main_arg5
  let main_cst_4 : FVec F S_ .f32 := constant S_ .f32 0x7F800000#32
  let main_v15 : FVec F S256x5 .f32 := broadcastInDim S256x5 ![] bcast_S_S256x5 main_cst_4
  let main_v16 : IVec S256x5 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x5 : Shape := ⟨2, ![128, 5]⟩
abbrev S1x5 : Shape := ⟨2, ![1, 5]⟩
abbrev S200000x5 : Shape := ⟨2, ![200000, 5]⟩
abbrev S5000x5 : Shape := ⟨2, ![5000, 5]⟩

abbrev nBuf : Space → Nat
  | .hbm => 75
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S256x5, .f32⟩
  | .hbm, ⟨6, _⟩ => ⟨S5, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .bf16⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S1x200000, .i32⟩
  | .hbm, ⟨50, _⟩ => ⟨S200000, .i32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x128, .f32⟩
  | .hbm, ⟨60, _⟩ => ⟨S1x200000, .i32⟩
  | .hbm, ⟨61, _⟩ => ⟨S200000, .i32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S200000x128, .f32⟩
  | .hbm, ⟨71, _⟩ => ⟨S128x5, .f32⟩
  | .hbm, ⟨72, _⟩ => ⟨S128x5, .f32⟩
  | .hbm, ⟨73, _⟩ => ⟨S1x5, .f32⟩
  | .hbm, ⟨74, _⟩ => ⟨S200000x5, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x5, .f32⟩
  | .local _ .vmem, ⟨12, _⟩ => ⟨S128x5, .f32⟩
  | .local _ .vmem, ⟨13, _⟩ => ⟨S1x5, .f32⟩
  | .local _ .vmem, ⟨14, _⟩ => ⟨S5000x5, .f32⟩
  | .local _ .vmem, ⟨15, _⟩ => ⟨S5000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S256x5_S128x5_0_0 : S256x5.Slices ![0, 0] S128x5
  slices_S256x5_S128x5_128_0 : S256x5.Slices ![128, 0] S128x5
  shapeCasts_S5_S1x5 : S5.ShapeCasts S1x5
  shapeCasts_S5000x128_S5000x128 : S5000x128.ShapeCasts S5000x128
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S200000x1_S200000x128_1_0_n_n_0_1_1128_wf : GatherDims.WF S100000x128 S200000x1 S200000x128 [1] [0] [] [0] [] 1 ![1, 128]
  dot_S5000x128_S128x5_S5000x5_1_0_0_1_n_n_wf : DotDims.WF S5000x128 S128x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x5.size a ≤ S128x5.size a
  hwx1_2 : ∀ i : grid1.Coords, EltTy.bits .f32 = 32 ∨ (Rect.block (s := S128x5) S128x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x5.size a ≤ S128x5.size a
  hwx1_3 : ∀ i : grid1.Coords, EltTy.bits .f32 = 32 ∨ (Rect.block (s := S128x5) S128x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x5.size a ≤ S200000x5.size a
  hwx1_5 : ∀ i : grid1.Coords, EltTy.bits .f32 = 32 ∨ (Rect.block (s := S200000x5) S5000x5.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S200000x5 : Shape := ⟨2, ![200000, 5]⟩
abbrev S1x5 : Shape := ⟨2, ![1, 5]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S256x5, .f32⟩
  | .hbm, ⟨6, _⟩ => ⟨S5, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x200000, .i32⟩
  | .hbm, ⟨68, _⟩ => ⟨S200000, .i32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x128, .f32⟩
  | .hbm, ⟨78, _⟩ => ⟨S1x200000, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x128, .f32⟩
  | .hbm, ⟨89, _⟩ => ⟨S200000x256, .f32⟩
  | .hbm, ⟨90, _⟩ => ⟨S200000x5, .f32⟩
  | .hbm, ⟨91, _⟩ => ⟨S1x5, .f32⟩
  | .hbm, ⟨92, _⟩ => ⟨S200000x5, .f32⟩
  | .hbm, ⟨93, _⟩ => ⟨S200000x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S200000x1_S200000x128_1_0_n_n_0_1_1128_wf : GatherDims.WF S100000x128 S200000x1 S200000x128 [1] [0] [] [0] [] 1 ![1, 128]
  dot_S200000x256_S256x5_S200000x5_1_0_0_1_n_n_wf : DotDims.WF S200000x256 S256x5 S200000x5 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x5_S200000x5_1_0_0_1_n_n : DotDims S200000x256 S256x5 S200000x5 where
  lhsContracting := [1]
  rhsContracting := [0]
  lhsNonContracting := [0]
  rhsNonContracting := [1]
  lhsBatch := []
  rhsBatch := []
  wf := dot_S200000x256_S256x5_S200000x5_1_0_0_1_n_n_wf

class Facts : Prop extends Facts₀ where

variable [Facts]
-- ==== Proof.RefTerm.lean ====
/-
  The reference's result as a composition of named stages, so that the two programs can be compared stage by stage.

  The graph has 100000 nodes and 1600000 edges given as a 2 × 1600000 table of node numbers (row 0: where an edge starts,
  row 1: where it ends); every node gets a self loop, so each row is extended by 0, 1, …, 99999 to 1700000 entries
  (edgeStarts, edgeEnds). A node's degree counts the entries of edgeEnds equal to it, and its factor is the reciprocal
  square root of the degree where the degree is positive and 0 elsewhere (nodeFactor). Looking a row up by an entry of
  a list wraps a negative entry by the node count first (wrapCol); adding rows into the node named by an entry uses the
  entry as it is (rawCol). The node embedding (nodesRef) adds, into node n, the row x·w of every edge's start weighted
  by the factors of both its ends, then the bias; the score of a candidate link (scoresOf) is the row [h(i) | h(j)] of
  its two ends' embeddings against a 256 × 5 weight, plus a bias.
-/
import proofs.«180158_j33303176413370_2_alg».proof.Proof.RefRun

noncomputable section

namespace Cert.ReferenceIdeal.Term

open Cert.ReferenceIdeal Cert.ReferenceIdeal.Gen Idealize.ShloMosaic Idealize.ShloMosaic.TcCoe Idealize.SL.Sem

variable {F : FTy → Type} [FloatOps F]

/-- Where each edge starts, the self loops appended. -/
def edgeStarts (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Where each edge ends, the self loops appended. -/
def edgeEnds (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A list of node numbers as a column of lookup positions: a negative entry is wrapped by the node count. -/
def wrapCol (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A list of node numbers as a column of accumulation targets: the entries as they are. -/
def rawCol (v : (⟨S1700000, .i32⟩ : BufTy).Contents (Elt F)) : (⟨S1700000x1, .i32⟩ : BufTy).Contents (Elt F) :=
  broadcastInDim S1700000x1 ![0] bcast_S1700000_S1700000x1_0 v

/-- How many edges (self loop included) end at each node. -/
def degree (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (rawCol (edgeEnds x1)) (broadcastInDim S1700000 ![] bcast_S_S1700000 (constant S_ .f32 0x3F800000#32))

/-- A node's factor: the reciprocal square root of its degree where that is positive, zero elsewhere. -/
def nodeFactor (x1 : (⟨S2x1600000, .i32⟩ : BufTy).Contents (Elt F)) : (⟨S100000, .f32⟩ : BufTy).Contents (Elt F) :=
  select (cmpf (F := F) .ogt (degree x1) (broadcastInDim S100000 ![] bcast_S_S100000 (constant S_ .f32 0x00000000#32))) (Host.rsqrt (degree x1)) (broadcastInDim S100000 ![] bcast_S_S100000 (id (constant S_ .f32 0x00000000#32)))

/-- The array of zeros the row sums start from. -/
def zeroRows : (⟨S100000x128, .f32⟩ : BufTy).Contents (Elt F) :=
  broadcastInDim S100000x128 ![] bcast_S_S100000x128 (constant S_ .f32 0x00000000#32)

/-- The bias vector repeated on every node's row. -/
def biasRows (x4 : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 x4)

/-- The reference's node embedding: each edge's start row of x·w, weighted by both ends' factors, added into its end. -/
def nodesRef (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  addf (Host.scatterAdd scatter_S100000x128_S1700000x1_S1700000x128_1_0_0_1 zeroRows (rawCol (edgeEnds x1)) (mulf (Host.gather gather_S100000x128_S1700000x1_S1700000x128_1_0_n_n_0_1_1128 (Host.dotGeneral dot_S100000x128_S128x128_S100000x128_1_0_0_1_n_n none x0 x3) (wrapCol (edgeStarts x1))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (nodeFactor x1) (wrapCol (edgeStarts x1))) (Host.gather gather_S100000_S1700000x1_S1700000_n_0_n_n_0_1_1 (nodeFactor x1) (wrapCol (edgeEnds x1)))))))) (biasRows x4)

/-- Row k of the candidate links' table as a column of lookup positions (negative entries wrapped). -/
def linkCol0 (x2 : (⟨S2x200000, .i32⟩ : BufTy).Contents (Elt F)) : (⟨S200000x1, .i32⟩ : BufTy).Contents (Elt F) :=
  broadcastInDim S200000x1 ![0] bcast_S200000_S200000x1_0 (select (cmpi .slt (shapeCast _ (extractStridedSlice S1x200000 ![0, 0] x2 slices_S2x200000_S1x200000_0_0) shapeCasts_S1x200000_S200000) (broadcastInDim S200000 ![] bcast_S_S200000 (constantI S_ 32 0#32))) (addi (shapeCast _ (extractStridedSlice S1x200000 ![0, 0] x2 slices_S2x200000_S1x200000_0_0) shapeCasts_S1x200000_S200000) (broadcastInDim S200000 ![] bcast_S_S200000 (constantI S_ 32 100000#32))) (shapeCast _ (extractStridedSlice S1x200000 ![0, 0] x2 slices_S2x200000_S1x200000_0_0) shapeCasts_S1x200000_S200000))

def linkCol1 (x2 : (⟨S2x200000, .i32⟩ : BufTy).Contents (Elt F)) : (⟨S200000x1, .i32⟩ : BufTy).Contents (Elt F) :=
  broadcastInDim S200000x1 ![0] bcast_S200000_S200000x1_0 (select (cmpi .slt (shapeCast _ (extractStridedSlice S1x200000 ![1, 0] x2 slices_S2x200000_S1x200000_1_0) shapeCasts_S1x200000_S200000) (broadcastInDim S200000 ![] bcast_S_S200000 (constantI S_ 32 0#32))) (addi (shapeCast _ (extractStridedSlice S1x200000 ![1, 0] x2 slices_S2x200000_S1x200000_1_0) shapeCasts_S1x200000_S200000) (broadcastInDim S200000 ![] bcast_S_S200000 (constantI S_ 32 100000#32))) (shapeCast _ (extractStridedSlice S1x200000 ![1, 0] x2 slices_S2x200000_S1x200000_1_0) shapeCasts_S1x200000_S200000))

/-- The two ends' embeddings of every candidate link, looked up in a table h of node embeddings. -/
def endRows0 (h : (⟨S100000x128, .f32⟩ : BufTy).Contents (Elt F)) (x2 : (⟨S2x200000, .i32⟩ : BufTy).Contents (Elt F)) : (⟨S200000x128, .f32⟩ : BufTy).Contents (Elt F) :=
  Host.gather gather_S100000x128_S200000x1_S200000x128_1_0_n_n_0_1_1128 h (linkCol0 x2)

def endRows1 (h : (⟨S100000x128, .f32⟩ : BufTy).Contents (Elt F)) (x2 : (⟨S2x200000, .i32⟩ : BufTy).Contents (Elt F)) : (⟨S200000x128, .f32⟩ : BufTy).Contents (Elt F) :=
  Host.gather gather_S100000x128_S200000x1_S200000x128_1_0_n_n_0_1_1128 h (linkCol1 x2)

/-- The reference's scores from a table h of node embeddings: [h(i) | h(j)] against the weight, plus the bias. -/
def scoresOf (h : (⟨S100000x128, .f32⟩ : BufTy).Contents (Elt F)) (x2 : (⟨S2x200000, .i32⟩ : BufTy).Contents (Elt F)) (x5 : (⟨S256x5, .f32⟩ : BufTy).Contents (Elt F)) (x6 : (⟨S5, .f32⟩ : BufTy).Contents (Elt F)) : (⟨S200000x5, .f32⟩ : BufTy).Contents (Elt F) :=
  addf (Host.dotGeneral dot_S200000x256_S256x5_S200000x5_1_0_0_1_n_n none (concatenate S200000x256 1 [⟨S200000x128, (endRows0 h x2)⟩, ⟨S200000x128, (endRows1 h x2)⟩] concatenates_S200000x128_S200000x128_S200000x256_d1) x5) (broadcastInDim S200000x5 ![0, 1] bcast_S1x5_S200000x5_0_1 (broadcastInDim S1x5 ![1] bcast_S5_S1x5_1 x6))

set_option maxRecDepth 8192 in
/-- The reference run's result term is these stages composed. -/
theorem res_eq (m : (ℓ : Loc nD τ sig) → Buf (Elt F) ℓ) (c : Dev nD) :
    Cert.ReferenceIdeal.ValueP.res_main_v69 m c
      = scoresOf (nodesRef (m ((c.tc : Thread nD τ).loc main_arg0)) (m ((c.tc : Thread nD τ).loc main_arg1)) (m ((c.tc : Thread nD τ).loc main_arg3)) (m ((c.tc : Thread nD τ).loc main_arg4)))
          (m ((c.tc : Thread nD τ).loc main_arg2)) (m ((c.tc : Thread nD τ).loc main_arg5)) (m ((c.tc : Thread nD τ).loc main_arg6)) := by
  unfold Cert.ReferenceIdeal.ValueP.res_main_v69; rfl

end Cert.ReferenceIdeal.Term

end
-- ==== Proof.KRun.lean ====
/-
  The idealized kernel program's run with its result NAMED. The program is three stretches of host operations, the
  first product's region, a fourth stretch, and the second product's region; the generated frame folds the buffer
  contents through those six segments (W0 … W6) and reads, at the end, every unscoped buffer at the last fold W6.
  Its stated post keeps only the seven arguments. Here the same launch is read once more, keeping also the result
  buffer: after every weakly fair execution it holds W6 at the result's reference, which the sibling modules open
  (the second region's array after its last grid point, over the host values before it).
-/
import proofs.«180158_j33303176413370_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    fold's contents and the seven arguments as launched. -/
theorem run_named : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Named

end
-- ==== Proof.Spec.lean ====
/-
  The two dense products of a link predictor over a graph convolution, as functions of whole arrays read entry by entry.

  The first takes the node features x (100000 × 128), a weight w (128 × 128) and a column d of 100000 node factors and
  gives row n of x · w scaled by d n:           (∑ₖ x(n,k) · w(k,c)) · d(n).
  The second takes, per candidate link r, the embeddings a(r,·) and b(r,·) of its two end nodes, the two halves wt, wb of a
  256 × 5 weight and a bias row, and gives       (∑ₖ a(r,k) · wt(k,o) + ∑ₖ b(r,k) · wb(k,o)) + bias(o).
  Both are stated on the extended reals; nothing here is specific to a program.
-/
import Idealize.ShloMosaic.Lib.ValueIdx
import Idealize.ShloMosaic.PureOps.Ideal

noncomputable section

open scoped BigOperators

namespace Cert.Spec

open Idealize.ShloMosaic Idealize.ShloMosaic.ValueIdx

/-- Row n of x · w, scaled by the node factor d n. -/
def scaledProduct (x : (⟨2, ![100000, 128]⟩ : Shape).Idx → EReal) (w : (⟨2, ![128, 128]⟩ : Shape).Idx → EReal)
    (d : (⟨2, ![100000, 1]⟩ : Shape).Idx → EReal) : (⟨2, ![100000, 128]⟩ : Shape).Idx → EReal :=
  fun j => (∑ k : Fin 128, x (ix2 (⟨(j 0).val, (j 0).isLt⟩ : Fin 100000) k) * w (ix2 k (⟨(j 1).val, (j 1).isLt⟩ : Fin 128)))
    * d (ix2 (⟨(j 0).val, (j 0).isLt⟩ : Fin 100000) (0 : Fin 1))

theorem scaledProduct_apply (x : (⟨2, ![100000, 128]⟩ : Shape).Idx → EReal) (w : (⟨2, ![128, 128]⟩ : Shape).Idx → EReal)
    (d : (⟨2, ![100000, 1]⟩ : Shape).Idx → EReal) (n : Fin 100000) (c : Fin 128) :
    scaledProduct x w d (ix2 n c) = (∑ k : Fin 128, x (ix2 n k) * w (ix2 k c)) * d (ix2 n (0 : Fin 1)) := rfl

/-- The score row of link r: its two end embeddings against the two halves of the weight, plus the bias. -/
def pairProject (a b : (⟨2, ![200000, 128]⟩ : Shape).Idx → EReal) (wt wb : (⟨2, ![128, 5]⟩ : Shape).Idx → EReal)
    (bias : (⟨2, ![1, 5]⟩ : Shape).Idx → EReal) : (⟨2, ![200000, 5]⟩ : Shape).Idx → EReal :=
  fun j => ((∑ k : Fin 128, a (ix2 (⟨(j 0).val, (j 0).isLt⟩ : Fin 200000) k) * wt (ix2 k (⟨(j 1).val, (j 1).isLt⟩ : Fin 5)))
      + ∑ k : Fin 128, b (ix2 (⟨(j 0).val, (j 0).isLt⟩ : Fin 200000) k) * wb (ix2 k (⟨(j 1).val, (j 1).isLt⟩ : Fin 5)))
    + bias (ix2 (0 : Fin 1) (⟨(j 1).val, (j 1).isLt⟩ : Fin 5))

theorem pairProject_apply (a b : (⟨2, ![200000, 128]⟩ : Shape).Idx → EReal) (wt wb : (⟨2, ![128, 5]⟩ : Shape).Idx → EReal)
    (bias : (⟨2, ![1, 5]⟩ : Shape).Idx → EReal) (r : Fin 200000) (o : Fin 5) :
    pairProject a b wt wb bias (ix2 r o)
      = ((∑ k : Fin 128, a (ix2 r k) * wt (ix2 k o)) + ∑ k : Fin 128, b (ix2 r k) * wb (ix2 k o)) + bias (ix2 (0 : Fin 1) o) := rfl

end Cert.Spec

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Region0.lean ====
/-
  The first dense product of the kernel, read off its grid of row blocks as one function of whole arrays.

  The region walks the 100000 rows of the node features in 20 blocks of 5000. At a point it holds a block of features
  (5000 × 128), the whole weight (128 × 128) and the block's column of node factors (5000 × 1), and stores the block's
  product with the weight, each row scaled by its factor. Rounding to a narrower format is the identity on the extended
  reals, so entry (p, c) of what a point stores is (∑ₖ x(p,k) · w(k,c)) · d(p) over its blocks; a block's entry (p, ·)
  is the array's entry (5000 t + p, ·); and row r of the output is written back by point r / 5000. Hence, whatever the
  arrays hold when the region is entered, the output array afterwards is the scaled product of those arrays.
-/
import proofs.«180158_j33303176413370_2_alg».proof.Proof.Gen.KernelIdeal.Frame
import proofs.«180158_j33303176413370_2_alg».proof.Proof.Spec
import proofs.«180158_j33303176413370_2_alg».proof.Proof.LibPlainDot
import proofs.«180158_j33303176413370_2_alg».proof.Proof.LibColumns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

/-! ## The body's payload at an entry -/

/-- The product of a 5000 × 128 block with the 128 × 128 weight into a zero accumulator, at entry (p, c): the sum over
    the contracted coordinate. -/
theorem product_apply (l : FVec Ideal S5000x128 .bf16) (r : FVec Ideal S128x128 .bf16) (p : Fin 5000) (c : Fin 128) :
    FloatOps.matmul dot_S5000x128_S128x128_S5000x128_1_0_0_1_n_n none l r (constant S5000x128 .f32 0x00000000#32) (ix2 p c)
      = ∑ k : Fin 128, (l (ix2 p k) : EReal) * (r (ix2 k c) : EReal) :=
  Cert.PlainDot.matmul_zero_apply dot_S5000x128_S128x128_S5000x128_1_0_0_1_n_n rfl rfl
    (fun i q => by
      unfold DotDims.lhsIdx
      rw [dif_neg (by decide), dif_pos (by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (by decide), dif_pos (by decide)]
      rfl)
    none l r p c

/-- What the body stores, at entry (p, c) of its block: row p of the block's product with the weight, scaled by the
    block's factor p. Rounding to a narrower format and back is the identity on the extended reals. -/
theorem payload_apply (x0 : Vec Ideal S5000x128 .f32) (x1 : Vec Ideal S128x128 .f32) (x2 : Vec Ideal S5000x1 .f32)
    (p : Fin 5000) (c : Fin 128) :
    (k0_pay1 (F := Ideal) x0 x1 x2 : S5000x128.Idx → EReal) (ix2 p c)
      = (∑ k : Fin 128, (x0 (ix2 p k) : EReal) * (x1 (ix2 k c) : EReal)) * (x2 (ix2 p (0 : Fin 1)) : EReal) := by
  unfold k0_pay1
  refine (mulf_apply _ _ (ix2 p c)).trans ?_
  refine congrArg₂ (· * ·) ?_ ?_
  · exact product_apply _ _ p c
  · rw [shapeCast_self]
    exact Cert.LibColumns.broadcastTo_a1_ab_apply x2 broadcasts_S5000x1_S5000x128 p c

/-! ## The windows' blocks as rows of their arrays -/

theorem zero_offsets : (![0, 0] : Fin 2 → Nat) = fun _ => 0 := funext fun a => by fin_cases a <;> rfl

/-- The printed index maps, decided once over the grid: the features, the factors and the output move down their
    arrays one block of rows a point, the weight stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry (p, k) of the feature block at point t is entry (5000 t + p, k) of the feature array. -/
theorem features_block_apply (c : Dev nD) (t : Fin cfg0.N) (p : Fin 5000) (k : Fin 128) (n : Fin 100000)
    (hn : n.val = 5000 * t.val + p.val) :
    (iblk0 (F := Ideal) V c 0 t : S5000x128.Idx → EReal) (ix2 p k) = (V c main_arg0 : S100000x128.Idx → EReal) (ix2 n k) := by
  obtain ⟨e0, e1, -⟩ := index_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight's block at every point is the weight. -/
theorem weight_block_apply (c : Dev nD) (t : Fin cfg0.N) (k : Fin 128) (q : Fin 128) :
    (iblk0 (F := Ideal) V c 1 t : S128x128.Idx → EReal) (ix2 k q) = (V c main_arg3 : S128x128.Idx → EReal) (ix2 k q) := by
  obtain ⟨-, -, e2, e3, -⟩ := index_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (p, 0) of the factor block at point t is entry (5000 t + p, 0) of the factor column. -/
theorem factors_block_apply (c : Dev nD) (t : Fin cfg0.N) (p : Fin 5000) (n : Fin 100000)
    (hn : n.val = 5000 * t.val + p.val) :
    (iblk0 (F := Ideal) V c 2 t : S5000x1.Idx → EReal) (ix2 p (0 : Fin 1)) = (V c main_v15 : S100000x1.Idx → EReal) (ix2 n (0 : Fin 1)) := by
  obtain ⟨-, -, -, -, e4, e5, -⟩ := index_facts t
  show V c main_v15 (((cfg0.win 2).blk t).view.emb (ix2 p (0 : Fin 1))) = V c main_v15 (ix2 n (0 : Fin 1))
  refine congrArg (V c main_v15) (funext fun a => Fin.ext ?_)
  match a with
  | ⟨0, _⟩ => show win0_2.index t (0 : Fin 2) * 5000 + 1 * p.val = n.val; rw [e4, hn]; omega
  | ⟨1, _⟩ => show win0_2.index t (1 : Fin 2) * 1 + 1 * 0 = 0; rw [e5]

/-- Entry (p, q) of the output's block at point t sits at entry (5000 t + p, q) of the output array. -/
theorem output_block_emb (t : Fin cfg0.N) (p : Fin 5000) (q : Fin 128) (n : Fin 100000)
    (hn : n.val = 5000 * t.val + p.val) :
    (((cfg0.win 3).blk t).view.emb (ix2 p q) : S100000x128.Idx) = ix2 n q := by
  obtain ⟨-, -, -, -, -, -, e6, e7⟩ := index_facts t
  refine funext fun a => Fin.ext ?_
  match a with
  | ⟨0, _⟩ => show win0_3.index t (0 : Fin 2) * 5000 + 1 * p.val = n.val; rw [e6, hn]; omega
  | ⟨1, _⟩ => show win0_3.index t (1 : Fin 2) * 128 + 1 * q.val = q.val; rw [e7]; omega

/-! ## The output's blocks cover its array -/

/-- An index of the output array is in point t's block iff each coordinate is in the block's range on its axis. -/
theorem mem_output_block (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row r of the output array is written back by point r / 5000. -/
theorem output_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := index_facts t
  refine ⟨t, flush0_3 t, ?_⟩
  rw [mem_output_block]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-! ## What each point writes back, and the array after the last point -/

/-- Point t writes back block t of the scaled product of the arrays the region finds. -/
theorem flushed_eq (c : Dev nD) (t : Fin cfg0.N) :
    (dat0 (F := Ideal) V c).flushed 3 t
      = ((cfg0.win 3).blk t).view.read (Elt Ideal)
          (Cert.Spec.scaledProduct (V c main_arg0) (V c main_arg3) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  funext j
  obtain ⟨p, q, rfl⟩ : ∃ (p : Fin 5000) (q : Fin 128), j = ix2 p q := ⟨j 0, j 1, eq_ix2 j⟩
  have hN : cfg0.N = 20 := N_0
  have ht : t.val < 20 := by have := t.isLt; omega
  obtain ⟨n, hn⟩ : ∃ n : Fin 100000, n.val = 5000 * t.val + p.val :=
    ⟨⟨5000 * t.val + p.val, by have := p.isLt; omega⟩, rfl⟩
  show (k0_pay1 (F := Ideal) (iblk0 V c 0 t) (iblk0 V c 1 t) (iblk0 V c 2 t) : S5000x128.Idx → EReal) (ix2 p q)
    = Cert.Spec.scaledProduct (V c main_arg0) (V c main_arg3) (V c main_v15) (((cfg0.win 3).blk t).view.emb (ix2 p q))
  rw [output_block_emb t p q n hn, Cert.Spec.scaledProduct_apply]
  refine (payload_apply (iblk0 V c 0 t) (iblk0 V c 1 t) (iblk0 V c 2 t) p q).trans ?_
  rw [factors_block_apply V c t p n hn]
  refine congrArg (· * _) (Finset.sum_congr rfl fun k _ => ?_)
  rw [features_block_apply V c t p k n hn, weight_block_apply V c t k q]

/-- After the last point the output array is the scaled product of the arrays the region found: every point writes
    back its block of that one function, and the blocks cover the array. -/
theorem arr0 (c : Dev nD) :
    (dat0 (F := Ideal) V c).arrAt 3 cfg0.N
      = Cert.Spec.scaledProduct (V c main_arg0) (V c main_arg3) (V c main_v15) :=
  (dat0 (F := Ideal) V c).arrAt_eq_of_cover 3 (Cert.Spec.scaledProduct (V c main_arg0) (V c main_arg3) (V c main_v15))
    (fun t _ => flushed_eq V c t) output_cover

end Cert.KernelIdeal.Region0

end
-- ==== Proof.Region1.lean ====
/-
  The second region's output array as one function of the arrays the region finds.

  The region walks 40 grid points; point t takes rows 5000 t … 5000 t + 4999 of the two 200000 × 128 inputs, the two whole
  128 × 5 weights and the whole 1 × 5 bias row, and writes back rows 5000 t … 5000 t + 4999 of the 200000 × 5 output. On the
  extended reals its body computes, at entry (p, o) of the block, (∑ₖ a(p,k) · wt(k,o) + ∑ₖ b(p,k) · wb(k,o)) + bias(o): the
  narrowing of the operands is the identity there, each product into the zero accumulator is the textbook sum, and the bias
  row is repeated down the rows. Hence what point t writes back is block t of the whole-array score function
  `Cert.Spec.pairProject` of the region-entry arrays; the 40 blocks cover the output (row r lies in block r / 5000), so the
  array ends holding that function. Everything is stated for ANY region-entry contents `V`.
-/
import proofs.«180158_j33303176413370_2_alg».proof.Proof.Gen.KernelIdeal.Frame
import proofs.«180158_j33303176413370_2_alg».proof.Proof.Spec
import proofs.«180158_j33303176413370_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

/-- The contraction of a 5000 × 128 block with a 128 × 5 weight into the zero accumulator, at entry (p, o). -/
theorem blockDot_apply (l : FVec Ideal S5000x128 .bf16) (r : FVec Ideal S128x5 .bf16) (p : Fin 5000) (o : Fin 5) :
    FloatOps.matmul dot_S5000x128_S128x5_S5000x5_1_0_0_1_n_n none l r (constant S5000x5 .f32 0x00000000#32) (ix2 p o)
      = ∑ k : Fin 128, (l (ix2 p k) : EReal) * (r (ix2 k o) : EReal) :=
  Cert.PlainDot.matmul_zero_apply dot_S5000x128_S128x5_S5000x5_1_0_0_1_n_n rfl rfl
    (fun i q => by unfold DotDims.lhsIdx; rw [dif_neg (by decide), dif_pos (by decide)]; rfl)
    (fun i q => dot_S5000x128_S128x5_S5000x5_1_0_0_1_n_n.lhsIdx_val_of_single rfl i q)
    (fun i q => dot_S5000x128_S128x5_S5000x5_1_0_0_1_n_n.rhsIdx_val_of_single rfl i q)
    (fun i q => by unfold DotDims.rhsIdx; rw [dif_neg (by decide), dif_pos (by decide)]; rfl)
    none l r p o

/-- The body's payload at entry (p, o) of its block: the two contractions added, plus the bias row's entry. -/
theorem pay_apply (x0 x1 : Vec Ideal S5000x128 .f32) (x2 x3 : Vec Ideal S128x5 .f32) (x4 : Vec Ideal S1x5 .f32)
    (p : Fin 5000) (o : Fin 5) :
    k1_pay1 x0 x1 x2 x3 x4 (ix2 p o)
      = ((∑ k : Fin 128, (x0 (ix2 p k) : EReal) * (x2 (ix2 k o) : EReal))
          + ∑ k : Fin 128, (x1 (ix2 p k) : EReal) * (x3 (ix2 k o) : EReal))
        + (x4 (ix2 (0 : Fin 1) o) : EReal) := by
  unfold k1_pay1
  simp only [shapeCast_self]
  refine (addf_apply _ _ _).trans ?_
  refine congrArg₂ (· + ·) ?_ ?_
  · refine (addf_apply _ _ _).trans ?_
    refine congrArg₂ (· + ·) ?_ ?_
    · exact blockDot_apply _ _ p o
    · exact blockDot_apply _ _ p o
  · exact broadcastTo_1b_ab_apply _ _ p o

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two row-blocked inputs and the output sit at block row `t`, block
    column 0; the two weights and the bias row are whole at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first input's block at point t is row 5000 t + p of its array. -/
theorem blockA_apply (c : Dev nD) (t : Fin cfg1.N) (p : Fin 5000) (k : Fin 128) (r : Fin 200000)
    (hr : r.val = 5000 * t.val + p.val) :
    (iblk1 V c 0 t : Vec Ideal S5000x128 .f32) (ix2 p k) = (V c main_v41 : S200000x128.Idx → EReal) (ix2 r k) := by
  obtain ⟨e0, e1, -⟩ := index_facts t
  unfold iblk1
  rw [View.read_apply]
  show V c main_v41 _ = V c main_v41 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the second input's block at point t is row 5000 t + p of its array. -/
theorem blockB_apply (c : Dev nD) (t : Fin cfg1.N) (p : Fin 5000) (k : Fin 128) (r : Fin 200000)
    (hr : r.val = 5000 * t.val + p.val) :
    (iblk1 V c 1 t : Vec Ideal S5000x128 .f32) (ix2 p k) = (V c main_v50 : S200000x128.Idx → EReal) (ix2 r k) := by
  obtain ⟨-, -, e0, e1, -⟩ := index_facts t
  unfold iblk1
  rw [View.read_apply]
  show V c main_v50 _ = V c main_v50 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight's block at every point is the whole weight. -/
theorem blockWt_apply (c : Dev nD) (t : Fin cfg1.N) (k : Fin 128) (o : Fin 5) :
    (iblk1 V c 2 t : Vec Ideal S128x5 .f32) (ix2 k o) = (V c main_v51 : S128x5.Idx → EReal) (ix2 k o) := by
  obtain ⟨-, -, -, -, e0, e1, -⟩ := index_facts t
  unfold iblk1
  rw [View.read_apply]
  show V c main_v51 _ = V c main_v51 _
  congr 1
  funext a
  apply Fin.ext
  match a with
  | ⟨0, _⟩ => show win1_2.index t (0 : Fin 2) * 128 + 1 * k.val = k.val; rw [e0]; omega
  | ⟨1, _⟩ => show win1_2.index t (1 : Fin 2) * 5 + 1 * o.val = o.val; rw [e1]; omega

/-- The second weight's block at every point is the whole weight. -/
theorem blockWb_apply (c : Dev nD) (t : Fin cfg1.N) (k : Fin 128) (o : Fin 5) :
    (iblk1 V c 3 t : Vec Ideal S128x5 .f32) (ix2 k o) = (V c main_v52 : S128x5.Idx → EReal) (ix2 k o) := by
  obtain ⟨-, -, -, -, -, -, e0, e1, -⟩ := index_facts t
  unfold iblk1
  rw [View.read_apply]
  show V c main_v52 _ = V c main_v52 _
  congr 1
  funext a
  apply Fin.ext
  match a with
  | ⟨0, _⟩ => show win1_3.index t (0 : Fin 2) * 128 + 1 * k.val = k.val; rw [e0]; omega
  | ⟨1, _⟩ => show win1_3.index t (1 : Fin 2) * 5 + 1 * o.val = o.val; rw [e1]; omega

/-- The bias row's block at every point is the whole row. -/
theorem blockBias_apply (c : Dev nD) (t : Fin cfg1.N) (u : Fin 1) (o : Fin 5) :
    (iblk1 V c 4 t : Vec Ideal S1x5 .f32) (ix2 u o) = (V c main_v53 : S1x5.Idx → EReal) (ix2 u o) := by
  obtain ⟨-, -, -, -, -, -, -, -, e0, e1, -⟩ := index_facts t
  unfold iblk1
  rw [View.read_apply]
  show V c main_v53 _ = V c main_v53 _
  congr 1
  funext a
  apply Fin.ext
  match a with
  | ⟨0, _⟩ => show win1_4.index t (0 : Fin 2) * 1 + 1 * u.val = u.val; rw [e0]; omega
  | ⟨1, _⟩ => show win1_4.index t (1 : Fin 2) * 5 + 1 * o.val = o.val; rw [e1]; omega

/-- Entry (p, o) of the output's block at point t sits at row 5000 t + p, column o of its array. -/
theorem outBlock_emb (t : Fin cfg1.N) (p : Fin 5000) (o : Fin 5) (r : Fin 200000) (hr : r.val = 5000 * t.val + p.val) :
    (((cfg1.win 5).blk t).view.emb (ix2 p o) : S200000x5.Idx) = ix2 r o := by
  obtain ⟨-, -, -, -, -, -, -, -, -, -, e0, e1⟩ := index_facts t
  funext a
  apply Fin.ext
  match a with
  | ⟨0, _⟩ => show win1_5.index t (0 : Fin 2) * 5000 + 1 * p.val = r.val; rw [e0, hr]; omega
  | ⟨1, _⟩ => show win1_5.index t (1 : Fin 2) * 5 + 1 * o.val = o.val; rw [e1]; omega

/-- What point t writes back is block t of the score function of the arrays the region finds. -/
theorem flushed_eq (c : Dev nD) (t : Fin cfg1.N) :
    (dat1 (F := Ideal) V c).flushed 5 t
      = ((cfg1.win 5).blk t).view.read (Elt Ideal)
          (Cert.Spec.pairProject (V c main_v41) (V c main_v50) (V c main_v51) (V c main_v52) (V c main_v53)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x5) zero_offsets,
    View.ld_unit_zero (S := S1x5) zero_offsets]
  funext j
  obtain ⟨p, o, rfl⟩ : ∃ (p : Fin 5000) (o : Fin 5), j = ix2 p o := ⟨j 0, j 1, eq_ix2 j⟩
  have hN : grid1.N = 40 := N_1
  have ht : t.val < 40 := hN ▸ t.isLt
  have hp : p.val < 5000 := p.isLt
  have hr : 5000 * t.val + p.val < 200000 := by omega
  show k1_pay1 (iblk1 V c 0 t) (iblk1 V c 1 t) (iblk1 V c 2 t) (iblk1 V c 3 t) (iblk1 V c 4 t) (ix2 p o)
    = Cert.Spec.pairProject (V c main_v41) (V c main_v50) (V c main_v51) (V c main_v52) (V c main_v53)
        (((cfg1.win 5).blk t).view.emb (ix2 p o))
  refine (pay_apply (iblk1 V c 0 t) (iblk1 V c 1 t) (iblk1 V c 2 t) (iblk1 V c 3 t) (iblk1 V c 4 t) p o).trans ?_
  refine Eq.trans ?_ (congrArg (Cert.Spec.pairProject (V c main_v41) (V c main_v50) (V c main_v51) (V c main_v52) (V c main_v53))
    (outBlock_emb t p o ⟨5000 * t.val + p.val, hr⟩ rfl)).symm
  refine Eq.trans ?_ (Cert.Spec.pairProject_apply _ _ _ _ _ ⟨5000 * t.val + p.val, hr⟩ o).symm
  refine congrArg₂ (· + ·) (congrArg₂ (· + ·) (Finset.sum_congr rfl fun k _ => ?_) (Finset.sum_congr rfl fun k _ => ?_)) ?_
  · exact congrArg₂ (· * ·) (blockA_apply V c t p k ⟨5000 * t.val + p.val, hr⟩ rfl) (blockWt_apply V c t k o)
  · exact congrArg₂ (· * ·) (blockB_apply V c t p k ⟨5000 * t.val + p.val, hr⟩ rfl) (blockWb_apply V c t k o)
  · exact blockBias_apply V c t 0 o

/-- An index of the output array is in point t's block iff each coordinate is in the block's range on its axis. -/
theorem mem_outBlock (t : Fin cfg1.N) (i : S200000x5.Idx) :
    i ∈ ((cfg1.win 5).blk t).view.set ↔ ∀ a : Fin 2, win1_5.index t a * S5000x5.size a ≤ (i a).val
      ∧ (i a).val < win1_5.index t a * S5000x5.size a + S5000x5.size a := by
  show i ∈ ((View.whole main_v54).slice (win1_5.rect t)).set ↔ _
  rw [View.set_slice_whole, Rect.mem_set_unit]
  exact Iff.rfl

/-- Every index of the output array lies in the block of the point its row divided by 5000 names, which writes back. -/
theorem cover (i : S200000x5.Idx) :
    ∃ t : Fin cfg1.N, (cfg1.win 5).flush t = true ∧ i ∈ ((cfg1.win 5).blk t).view.set := by
  have hN : grid1.N = 40 := N_1
  have hi0 : (i 0).val < 200000 := (i 0).isLt
  have hi1 : (i 1).val < 5 := (i 1).isLt
  have hlt : (i 0).val / 5000 < grid1.N := by rw [hN]; omega
  refine ⟨⟨(i 0).val / 5000, hlt⟩, flush1_5 _, ?_⟩
  rw [mem_outBlock]
  obtain ⟨-, -, -, -, -, -, -, -, -, -, e0, e1⟩ := index_facts ⟨(i 0).val / 5000, hlt⟩
  have e0' : win1_5.index ⟨(i 0).val / 5000, hlt⟩ (0 : Fin 2) = (i 0).val / 5000 := e0
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0']; omega
  | ⟨1, _⟩ =>
    show win1_5.index ⟨(i 0).val / 5000, hlt⟩ (1 : Fin 2) * 5 ≤ (i 1).val
      ∧ (i 1).val < win1_5.index ⟨(i 0).val / 5000, hlt⟩ (1 : Fin 2) * 5 + 5
    rw [e1]; omega

/-- After all grid points the region's output array is the score function of the arrays the region finds. -/
theorem arr1 (V : (c : Dev nD) → (b : Ref sig .tc) → Buf (Elt Ideal) ((c : Thread nD τ).loc b)) (c : Dev nD) :
    (dat1 (F := Ideal) V c).arrAt 5 cfg1.N
      = Cert.Spec.pairProject (V c main_v41) (V c main_v50) (V c main_v51) (V c main_v52) (V c main_v53) :=
  (dat1 (F := Ideal) V c).arrAt_eq_of_cover 5 _ (fun t _ => flushed_eq V c t) cover

end Cert.KernelIdeal.Region1

end
-- ==== Proof.KerTerm.lean ====
/-
  The idealized kernel program's result as a composition of named stages (the same stages as the reference's where the
  two programs agree: the edge lists with their self loops, the node factors, the lookup columns), on the extended reals.

  The kernel program scales row n of x·w by the factor of node n inside its first product (scaledRows), adds the start
  row of every edge into the edge's end, scales row n of the sums by the factor of node n again and adds the bias
  (nodesKer); it scores a candidate link by its two ends' embeddings against the two halves of the weight (scoresKer).
-/
import proofs.«180158_j33303176413370_2_alg».proof.KernelIdeal
import proofs.«180158_j33303176413370_2_alg».proof.Proof.Gen.KernelIdeal
import proofs.«180158_j33303176413370_2_alg».proof.Proof.Spec
import Idealize.ShloMosaic.PureOps.Ideal

noncomputable section

namespace Cert.KernelIdeal.Term

open Cert.KernelIdeal Cert.KernelIdeal.Gen Idealize.ShloMosaic Idealize.ShloMosaic.TcCoe Idealize.SL.Sem

/-- Where each edge starts, the self loops appended. -/
def edgeStarts (x1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Where each edge ends, the self loops appended. -/
def edgeEnds (x1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A list of node numbers as a column of lookup positions: a negative entry is wrapped by the node count. -/
def wrapCol (v : (⟨S1700000, .i32⟩ : BufTy).Contents (Elt Ideal)) : (⟨S1700000x1, .i32⟩ : BufTy).Contents (Elt Ideal) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A list of node numbers as a column of accumulation targets: the entries as they are. -/
def rawCol (v : (⟨S1700000, .i32⟩ : BufTy).Contents (Elt Ideal)) : (⟨S1700000x1, .i32⟩ : BufTy).Contents (Elt Ideal) :=
  broadcastInDim S1700000x1 ![0] bcast_S1700000_S1700000x1_0 v

/-- How many edges (self loop included) end at each node. -/
def degree (x1 : (⟨S2x1600000, .i32⟩ : BufTy).Contents (Elt Ideal)) : (⟨S100000, .f32⟩ : BufTy).Contents (Elt Ideal) :=
  Host.scatterAdd (F := Ideal) (φ := .f32) scatter_S100000_S1700000x1_S1700000_n_0_0_1 (broadcastInDim S100000 ![] bcast_S_S100000 (constant (F := Ideal) S_ .f32 0x00000000#32)) (rawCol (edgeEnds x1)) (broadcastInDim S1700000 ![] bcast_S_S1700000 (constant (F := Ideal) S_ .f32 0x3F800000#32))

/-- A node's factor: the reciprocal square root of its degree where that is positive, zero elsewhere. -/
def nodeFactor (x1 : (⟨S2x1600000, .i32⟩ : BufTy).Contents (Elt Ideal)) : (⟨S100000, .f32⟩ : BufTy).Contents (Elt Ideal) :=
  select (cmpf (F := Ideal) (φ := .f32) .ogt (degree x1) (broadcastInDim S100000 ![] bcast_S_S100000 (constant (F := Ideal) S_ .f32 0x00000000#32))) (Host.rsqrt (F := Ideal) (φ := .f32) (degree x1)) (broadcastInDim S100000 ![] bcast_S_S100000 (id (constant (F := Ideal) S_ .f32 0x00000000#32)))

/-- The node factors as a column. -/
def factorCol (x1 : (⟨S2x1600000, .i32⟩ : BufTy).Contents (Elt Ideal)) : (⟨S100000x1, .f32⟩ : BufTy).Contents (Elt Ideal) :=
  shapeCast S100000x1 (nodeFactor x1) shapeCasts_S100000_S100000x1

/-- The array of zeros the row sums start from. -/
def zeroRows : (⟨S100000x128, .f32⟩ : BufTy).Contents (Elt Ideal) :=
  broadcastInDim S100000x128 ![] bcast_S_S100000x128 (constant (F := Ideal) S_ .f32 0x00000000#32)

/-- The bias vector repeated on every node's row. -/
def biasRows (x4 : (⟨S128, .f32⟩ : BufTy).Contents (Elt Ideal)) : (⟨S100000x128, .f32⟩ : BufTy).Contents (Elt Ideal) :=
  broadcastInDim S100000x128 ![0, 1] bcast_S1x128_S100000x128_0_1 (broadcastInDim S1x128 ![1] bcast_S128_S1x128_1 x4)

/-- What the first product leaves: row n of x·w scaled by node n's factor. -/
def scaledRows (x0 : (⟨S100000x128, .f32⟩ : BufTy).Contents (Elt Ideal)) (x1 : (⟨S2x1600000, .i32⟩ : BufTy).Contents (Elt Ideal)) (x3 : (⟨S128x128, .f32⟩ : BufTy).Contents (Elt Ideal)) : (⟨S100000x128, .bf16⟩ : BufTy).Contents (Elt Ideal) :=
  Cert.Spec.scaledProduct x0 x3 (factorCol x1)

/-- The kernel program's node embedding: the scaled start rows added into each edge's end, scaled again, plus the bias. -/
def nodesKer (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) : (⟨S100000x128, .f32⟩ : BufTy).Contents (Elt Ideal) :=
  addf (F := Ideal) (φ := .f32) (mulf (F := Ideal) (φ := .f32) (Host.scatterAdd (F := Ideal) (φ := .f32) scatter_S100000x128_S1700000x1_S1700000x128_1_0_0_1 zeroRows (rawCol (edgeEnds x1)) (extf (F := Ideal) (φ := .bf16) .f32 (Host.gather gather_S100000x128_S1700000x1_S1700000x128_1_0_n_n_0_1_1128 (scaledRows x0 x1 x3) (wrapCol (edgeStarts x1))) bitsLt_bf16_f32)) (broadcastInDim S100000x128 ![0, 1] bcast_S100000x1_S100000x128_0_1 (factorCol x1))) (biasRows x4)

/-- Row k of the candidate links' table as a column of lookup positions (negative entries wrapped). -/
def linkCol0 (x2 : (⟨S2x200000, .i32⟩ : BufTy).Contents (Elt Ideal)) : (⟨S200000x1, .i32⟩ : BufTy).Contents (Elt Ideal) :=
  broadcastInDim S200000x1 ![0] bcast_S200000_S200000x1_0 (select (cmpi .slt (shapeCast _ (extractStridedSlice S1x200000 ![0, 0] x2 slices_S2x200000_S1x200000_0_0) shapeCasts_S1x200000_S200000) (broadcastInDim S200000 ![] bcast_S_S200000 (constantI S_ 32 0#32))) (addi (shapeCast _ (extractStridedSlice S1x200000 ![0, 0] x2 slices_S2x200000_S1x200000_0_0) shapeCasts_S1x200000_S200000) (broadcastInDim S200000 ![] bcast_S_S200000 (constantI S_ 32 100000#32))) (shapeCast _ (extractStridedSlice S1x200000 ![0, 0] x2 slices_S2x200000_S1x200000_0_0) shapeCasts_S1x200000_S200000))

def linkCol1 (x2 : (⟨S2x200000, .i32⟩ : BufTy).Contents (Elt Ideal)) : (⟨S200000x1, .i32⟩ : BufTy).Contents (Elt Ideal) :=
  broadcastInDim S200000x1 ![0] bcast_S200000_S200000x1_0 (select (cmpi .slt (shapeCast _ (extractStridedSlice S1x200000 ![1, 0] x2 slices_S2x200000_S1x200000_1_0) shapeCasts_S1x200000_S200000) (broadcastInDim S200000 ![] bcast_S_S200000 (constantI S_ 32 0#32))) (addi (shapeCast _ (extractStridedSlice S1x200000 ![1, 0] x2 slices_S2x200000_S1x200000_1_0) shapeCasts_S1x200000_S200000) (broadcastInDim S200000 ![] bcast_S_S200000 (constantI S_ 32 100000#32))) (shapeCast _ (extractStridedSlice S1x200000 ![1, 0] x2 slices_S2x200000_S1x200000_1_0) shapeCasts_S1x200000_S200000))

/-- The two ends' embeddings of every candidate link, looked up in a table h of node embeddings. -/
def endRows0 (h : (⟨S100000x128, .f32⟩ : BufTy).Contents (Elt Ideal)) (x2 : (⟨S2x200000, .i32⟩ : BufTy).Contents (Elt Ideal)) : (⟨S200000x128, .f32⟩ : BufTy).Contents (Elt Ideal) :=
  Host.gather gather_S100000x128_S200000x1_S200000x128_1_0_n_n_0_1_1128 h (linkCol0 x2)

def endRows1 (h : (⟨S100000x128, .f32⟩ : BufTy).Contents (Elt Ideal)) (x2 : (⟨S2x200000, .i32⟩ : BufTy).Contents (Elt Ideal)) : (⟨S200000x128, .f32⟩ : BufTy).Contents (Elt Ideal) :=
  Host.gather gather_S100000x128_S200000x1_S200000x128_1_0_n_n_0_1_1128 h (linkCol1 x2)

/-- The kernel program's scores from a table h of node embeddings: the two ends against the two halves of the weight. -/
def scoresKer (h : (⟨S100000x128, .f32⟩ : BufTy).Contents (Elt Ideal)) (x2 : (⟨S2x200000, .i32⟩ : BufTy).Contents (Elt Ideal)) (x5 : (⟨S256x5, .f32⟩ : BufTy).Contents (Elt Ideal)) (x6 : (⟨S5, .f32⟩ : BufTy).Contents (Elt Ideal)) : (⟨S200000x5, .f32⟩ : BufTy).Contents (Elt Ideal) :=
  Cert.Spec.pairProject (endRows0 h x2) (endRows1 h x2) (extractStridedSlice S128x5 ![0, 0] x5 slices_S256x5_S128x5_0_0)
    (extractStridedSlice S128x5 ![128, 0] x5 slices_S256x5_S128x5_128_0) (shapeCast S1x5 x6 shapeCasts_S5_S1x5)

end Cert.KernelIdeal.Term

end
-- ==== Proof.HostK.lean ====
/-
  What the idealized kernel program's result buffer holds at the end, as the named stages of its computation.

  The generated frame folds the buffer contents through the program: three stretches of host operations (the edge lists
  with their self loops, the degrees, the node factors as a column), the first product's region (whose array ends at
  rows of x·w scaled by the factors: the sibling module about that region), a fourth stretch (looking the scaled rows
  up by each edge's start, adding them into the edge's end, scaling by the factors again, adding the bias; then looking
  the two ends of every candidate link up, and cutting the weight in two halves), and the second product's region
  (whose array ends at the links' scores: its own sibling module). Each step here reads one of these folds at one
  buffer; composed, the result buffer holds the scores of the kernel program's node embedding.
-/
import proofs.«180158_j33303176413370_2_alg».proof.Proof.Gen.KernelIdeal.Frame
import proofs.«180158_j33303176413370_2_alg».proof.Proof.Region0
import proofs.«180158_j33303176413370_2_alg».proof.Proof.Region1
import proofs.«180158_j33303176413370_2_alg».proof.Proof.KerTerm
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first product -/

theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results <;> rfl
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results <;> rfl
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results <;> rfl
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results <;> rfl
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results <;> rfl
theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results <;> rfl
theorem W3_starts (c : Dev nD) : W3 m ρ c (Proc.devRef .tc main_v3) = Cert.KernelIdeal.Term.edgeStarts (m ((c : Thread nD τ).loc main_arg1)) := by
  show StableHlo.after hostOps0_2 (StableHlo.after hostOps0_1 (StableHlo.after hostOps0 (W0 m ρ c))) (Proc.devRef .tc main_v3) = _
  after_results <;> rfl
theorem W3_ends (c : Dev nD) : W3 m ρ c (Proc.devRef .tc main_v6) = Cert.KernelIdeal.Term.edgeEnds (m ((c : Thread nD τ).loc main_arg1)) := by
  show StableHlo.after hostOps0_2 (StableHlo.after hostOps0_1 (StableHlo.after hostOps0 (W0 m ρ c))) (Proc.devRef .tc main_v6) = _
  after_results <;> rfl
/-- The three values the node factors are selected from, after the first stretch. -/
theorem W1_positive (c : Dev nD) :
    StableHlo.after hostOps0 (W0 m ρ c) (Proc.devRef .tc main_v12)
      = cmpf (F := Ideal) (φ := .f32) .ogt (Cert.KernelIdeal.Term.degree (m ((c : Thread nD τ).loc main_arg1))) (broadcastInDim S100000 ![] bcast_S_S100000 (constant (F := Ideal) S_ .f32 0x00000000#32)) := by
  after_results <;> rfl
theorem W1_roots (c : Dev nD) :
    StableHlo.after hostOps0 (W0 m ρ c) (Proc.devRef .tc main_v13) = Host.rsqrt (F := Ideal) (φ := .f32) (Cert.KernelIdeal.Term.degree (m ((c : Thread nD τ).loc main_arg1))) := by
  after_results <;> rfl
theorem W1_zero (c : Dev nD) :
    StableHlo.after hostOps0 (W0 m ρ c) (Proc.devRef .tc main_cst_2) = constant (F := Ideal) S_ .f32 0x00000000#32 := by
  after_results <;> rfl

/-- The selection and the recast to a column, from any contents V of the three buffers it reads. -/
theorem select_column (V : Valuation τ sig (Elt Ideal)) :
    StableHlo.after hostOps0_2 (StableHlo.after hostOps0_1 V) (Proc.devRef .tc main_v15)
      = shapeCast S100000x1 (select (V (Proc.devRef .tc main_v12)) (V (Proc.devRef .tc main_v13))
          (broadcastInDim S100000 ![] bcast_S_S100000 (id (V (Proc.devRef .tc main_cst_2))))) shapeCasts_S100000_S100000x1 := by
  after_results <;> rfl

theorem W3_factors (c : Dev nD) : W3 m ρ c (Proc.devRef .tc main_v15) = Cert.KernelIdeal.Term.factorCol (m ((c : Thread nD τ).loc main_arg1)) := by
  refine (select_column (StableHlo.after hostOps0 (W0 m ρ c))).trans ?_
  rw [W1_positive, W1_roots, W1_zero]
  rfl

/-! ## After the first product -/

theorem W4_scaled (c : Dev nD) :
    W4 m ρ c (Proc.devRef .tc main_v16) = Cert.KernelIdeal.Term.scaledRows (m ((c : Thread nD τ).loc main_arg0)) (m ((c : Thread nD τ).loc main_arg1)) (m ((c : Thread nD τ).loc main_arg3)) := by
  refine (W4_arr m ρ c 3).trans ((Cert.KernelIdeal.Region0.arr0 (V3 m ρ) c).trans ?_)
  show Cert.Spec.scaledProduct (W3 m ρ c (Proc.devRef .tc main_arg0)) (W3 m ρ c (Proc.devRef .tc main_arg3)) (W3 m ρ c (Proc.devRef .tc main_v15)) = _
  rw [W3_arg0, W3_arg3, W3_factors]
  rfl

theorem W4_factors (c : Dev nD) : W4 m ρ c (Proc.devRef .tc main_v15) = Cert.KernelIdeal.Term.factorCol (m ((c : Thread nD τ).loc main_arg1)) :=
  ((W4_arr m ρ c 2).trans (((dat0 (V3 m ρ) c).arrAt_in 2 rfl _).trans (A_eq0 (V3 m ρ) c 2))).trans (W3_factors m ρ c)

theorem W4_starts (c : Dev nD) : W4 m ρ c (Proc.devRef .tc main_v3) = Cert.KernelIdeal.Term.edgeStarts (m ((c : Thread nD τ).loc main_arg1)) :=
  (W4_of_ne m ρ c main_v3 (by decide)).trans (W3_starts m ρ c)
theorem W4_ends (c : Dev nD) : W4 m ρ c (Proc.devRef .tc main_v6) = Cert.KernelIdeal.Term.edgeEnds (m ((c : Thread nD τ).loc main_arg1)) :=
  (W4_of_ne m ρ c main_v6 (by decide)).trans (W3_ends m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)

/-! ## Before the second product -/

theorem W5_ends0 (c : Dev nD) :
    W5 m ρ c (Proc.devRef .tc main_v41)
      = Cert.KernelIdeal.Term.endRows0 (Cert.KernelIdeal.Term.nodesKer (m ((c : Thread nD τ).loc main_arg0)) (m ((c : Thread nD τ).loc main_arg1)) (m ((c : Thread nD τ).loc main_arg3)) (m ((c : Thread nD τ).loc main_arg4))) (m ((c : Thread nD τ).loc main_arg2)) := by
  show StableHlo.after hostOps1 (W4 m ρ c) (Proc.devRef .tc main_v41) = _
  after_results_simp
  rw [W4_scaled, W4_factors, W4_starts, W4_ends, W4_arg2, W4_arg4]
  rfl

theorem W5_ends1 (c : Dev nD) :
    W5 m ρ c (Proc.devRef .tc main_v50)
      = Cert.KernelIdeal.Term.endRows1 (Cert.KernelIdeal.Term.nodesKer (m ((c : Thread nD τ).loc main_arg0)) (m ((c : Thread nD τ).loc main_arg1)) (m ((c : Thread nD τ).loc main_arg3)) (m ((c : Thread nD τ).loc main_arg4))) (m ((c : Thread nD τ).loc main_arg2)) := by
  show StableHlo.after hostOps1 (W4 m ρ c) (Proc.devRef .tc main_v50) = _
  after_results_simp
  rw [W4_scaled, W4_factors, W4_starts, W4_ends, W4_arg2, W4_arg4]
  rfl

theorem W5_top (c : Dev nD) :
    W5 m ρ c (Proc.devRef .tc main_v51) = extractStridedSlice S128x5 ![0, 0] (m ((c : Thread nD τ).loc main_arg5)) slices_S256x5_S128x5_0_0 := by
  show StableHlo.after hostOps1 (W4 m ρ c) (Proc.devRef .tc main_v51) = _
  after_results_simp
  rw [W4_arg5]

theorem W5_bottom (c : Dev nD) :
    W5 m ρ c (Proc.devRef .tc main_v52) = extractStridedSlice S128x5 ![128, 0] (m ((c : Thread nD τ).loc main_arg5)) slices_S256x5_S128x5_128_0 := by
  show StableHlo.after hostOps1 (W4 m ρ c) (Proc.devRef .tc main_v52) = _
  after_results_simp
  rw [W4_arg5]

theorem W5_bias (c : Dev nD) :
    W5 m ρ c (Proc.devRef .tc main_v53) = shapeCast S1x5 (m ((c : Thread nD τ).loc main_arg6)) shapeCasts_S5_S1x5 := by
  show StableHlo.after hostOps1 (W4 m ρ c) (Proc.devRef .tc main_v53) = _
  after_results_simp
  rw [W4_arg6]
  rfl

/-! ## The result -/

/-- The result buffer ends at the kernel program's scores of its own node embedding. -/
theorem result_eq (c : Dev nD) :
    W6 m ρ c (Proc.devRef .tc main_v54)
      = Cert.KernelIdeal.Term.scoresKer (Cert.KernelIdeal.Term.nodesKer (m ((c : Thread nD τ).loc main_arg0)) (m ((c : Thread nD τ).loc main_arg1)) (m ((c : Thread nD τ).loc main_arg3)) (m ((c : Thread nD τ).loc main_arg4)))
          (m ((c : Thread nD τ).loc main_arg2)) (m ((c : Thread nD τ).loc main_arg5)) (m ((c : Thread nD τ).loc main_arg6)) := by
  refine (W6_arr m ρ c 5).trans ((Cert.KernelIdeal.Region1.arr1 (V5 m ρ) c).trans ?_)
  show Cert.Spec.pairProject (W5 m ρ c (Proc.devRef .tc main_v41)) (W5 m ρ c (Proc.devRef .tc main_v50)) (W5 m ρ c (Proc.devRef .tc main_v51))
    (W5 m ρ c (Proc.devRef .tc main_v52)) (W5 m ρ c (Proc.devRef .tc main_v53)) = _
  rw [W5_ends0, W5_ends1, W5_top, W5_bottom, W5_bias]
  rfl

end Cert.KernelIdeal.HostK

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibScaledSegments.lean ====
/-
  A reusable general lemma: a symmetric normalisation of a segment sum, applied per summand or per segment, on the extended
  reals.

  A graph convolution normalised by node degrees weights the contribution of an edge e that ends at node n by
  s(e) · 1 · d(n), where s(e) is the factor of the edge's source and d(n) the factor of its destination. The destination's
  factor is the same for every edge of the segment, so it may instead multiply the finished segment sum:
      (∑_{e ends at n} a(e) · s(e)) · d(n) = ∑_{e ends at n} a(e) · (s(e) · 1 · d(n)).
  On the extended reals a factor moves across a finite sum only when it is nonnegative and finite (multiplying +∞ + −∞ = −∞
  by a negative number turns it into +∞, while the summands' products add to −∞); the summands a(e) · s(e) themselves may
  be anything. The factor of a node is such a number whatever its degree: it is the reciprocal square root of the degree
  where the degree is positive — a positive real, or 0 at degree +∞ — and 0 elsewhere.
-/
import Idealize.ShloMosaic.PureOps.Ideal

noncomputable section

open scoped BigOperators

namespace Cert.ScaledSegments

open Idealize.ShloMosaic

/-- A nonnegative finite factor moves into a finite sum of extended reals. -/
theorem sum_mul_of_nonneg_of_ne_top {ι : Type} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- The degree's factor — the reciprocal square root where the degree is positive, zero elsewhere — is a nonnegative
    real at every extended real degree: a positive real degree gives a positive real, the degree +∞ gives 0. -/
theorem select_rsqrt_eq_coe (d : EReal) :
    ∃ r : ℝ, 0 ≤ r ∧ Scalar.select (Ideal.cmp .ogt d 0) (Ideal.rsqrt d) (0 : EReal) = (r : EReal) := by
  induction d using EReal.rec with
  | bot => exact ⟨0, le_rfl, by simp [Ideal.cmp, Scalar.select]⟩
  | top => exact ⟨0, le_rfl, by simp [Ideal.cmp, Scalar.select]⟩
  | coe x =>
    by_cases hx : 0 < x
    · refine ⟨(Real.sqrt x)⁻¹, inv_nonneg.mpr (Real.sqrt_nonneg x), ?_⟩
      have h1 : Ideal.cmp .ogt (x : EReal) 0 = 1 := by
        simp [Ideal.cmp, hx]
      rw [h1, Ideal.rsqrt_coe, if_neg (not_lt.mpr hx.le), if_neg hx.ne']
      simp [Scalar.select]
    · refine ⟨0, le_rfl, ?_⟩
      have h0 : Ideal.cmp .ogt (x : EReal) 0 = 0 := by
        simp [Ideal.cmp, hx]
      rw [h0]
      simp [Scalar.select]

/-- So it is nonnegative and not +∞. -/
theorem select_rsqrt_nonneg_ne_top (d : EReal) :
    0 ≤ Scalar.select (Ideal.cmp .ogt d 0) (Ideal.rsqrt d) (0 : EReal)
      ∧ Scalar.select (Ideal.cmp .ogt d 0) (Ideal.rsqrt d) (0 : EReal) ≠ ⊤ := by
  obtain ⟨r, hr, e⟩ := select_rsqrt_eq_coe d
  rw [e]
  exact ⟨by exact_mod_cast hr, EReal.coe_ne_top r⟩

/-- THE LAW: the destination's factor, applied to the finished segment sum, equals it applied inside every summand
    (as `s · 1 · d`), the sum starting from zero on both sides. `tgt e` says that summand e belongs to the segment. -/
theorem segment_scale {ι : Type} [Fintype ι] (tgt : ι → Prop) [DecidablePred tgt] (a s nrm : ι → EReal) {d : EReal}
    (hd : 0 ≤ d) (hd' : d ≠ ⊤) (hn : ∀ e, tgt e → nrm e = s e * 1 * d) :
    (0 + ∑ e, if tgt e then a e * s e else 0) * d = 0 + ∑ e, if tgt e then a e * nrm e else 0 := by
  rw [zero_add, zero_add, sum_mul_of_nonneg_of_ne_top _ _ hd hd']
  refine Finset.sum_congr rfl fun e _ => ?_
  by_cases h : tgt e
  · rw [if_pos h, if_pos h, hn e h, mul_one, mul_assoc]
  · rw [if_neg h, if_neg h, zero_mul]

end Cert.ScaledSegments

end
-- ==== Proof.LibSeparableNorm.lean ====
/-
  A reusable general lemma: a graph aggregation normalised by node factors, the destination's factor applied to the
  finished segment sums or inside every summand — as whole-array operations.

  Let x be an N × C table of node features, s a vector of N node factors, and let E edges be given by three columns
  of integer indices: src (the row an edge reads), dst (the row it adds to) and dstw (the position at which the
  destination's factor is looked up). One way to normalise: scale row n of the table by s n, gather the rows named
  by src, add each gathered row into the row named by dst, and scale row n of the sums by s n again. The other way:
  gather the rows of the unscaled table, multiply the row of edge e by s(src e) · s(dstw e), and add it into the row
  named by dst. Entry (n, c) is, the first way,

      (∑_{e : dst e = n} x (src e, c) · s (src e)) · s n,

  and the second way ∑_{e : dst e = n} x (src e, c) · (s (src e) · s (dstw e)). A scatter drops an edge whose
  destination is out of range, a gather clamps its index into range; so the two agree as soon as, for every edge
  that lands on a row n, the clamped lookup position dstw e is n too — and as soon as s n is a nonnegative finite
  number, which is what lets it move across a finite sum of extended reals (the summands may be anything).
  The factor of a node of degree d in a graph with self loops, (max d 1)^(-1/2), is such a number for EVERY extended
  real d: max d 1 is at least 1, the reciprocal root of a real at least 1 is a positive real, and that of +∞ is 0.
-/
import Idealize.ShloMosaic.Lib.ValueIdx
import Idealize.ShloMosaic.PureOps.Ideal
import proofs.«180158_j33303176413370_2_alg».proof.Proof.LibGatherRows
import proofs.«180158_j33303176413370_2_alg».proof.Proof.LibVecIndex
import proofs.«180158_j33303176413370_2_alg».proof.Proof.LibJoinIota
import proofs.«180158_j33303176413370_2_alg».proof.Proof.LibScatterRows
import proofs.«180158_j33303176413370_2_alg».proof.Proof.LibScaledSegments

noncomputable section

open scoped BigOperators

namespace Cert.SeparableNorm

open Idealize.ShloMosaic Idealize.ShloMosaic.ValueIdx

/-- The reciprocal square root of max d 1 is a nonnegative real, whatever the extended real d. -/
theorem rsqrt_max_one_nonneg_ne_top (d : EReal) :
    0 ≤ Ideal.rsqrt (max d 1) ∧ Ideal.rsqrt (max d 1) ≠ ⊤ := by
  have h1 : (1 : EReal) ≤ max d 1 := le_max_right d 1
  generalize max d 1 = y at h1
  induction y using EReal.rec with
  | bot => exact absurd h1 (not_le.mpr (by simpa using EReal.bot_lt_coe 1))
  | top => simp
  | coe r =>
    have hr : (1 : ℝ) ≤ r := by exact_mod_cast h1
    rw [Ideal.rsqrt_coe, if_neg (by linarith), if_neg (by linarith)]
    exact ⟨by exact_mod_cast inv_nonneg.mpr (Real.sqrt_nonneg r), EReal.coe_ne_top _⟩

/-- THE LAW, for whole arrays: scaling the table's rows by the node factors, aggregating, and scaling the sums'
    rows again equals aggregating the unscaled rows each weighted by the product of the two gathered factors. The
    records are any records of the row scatter, the row gather and the vector gather (the equations by rfl on a
    program's literal records); z is the array of zeros the sums start from. -/
theorem aggregate_scaled_rows {N E C w : Nat} {φ : FTy} (hN : 0 < N)
    (wfs : ScatterDims.WF ⟨2, ![N, C]⟩ ⟨2, ![E, 1]⟩ ⟨2, ![E, C]⟩ [1] [0] [0] 1)
    (wfr : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (ds : ScatterDims ⟨2, ![N, C]⟩ ⟨2, ![E, 1]⟩ ⟨2, ![E, C]⟩) (hds : ds = ScatterRows.rowDims N E C wfs)
    (dr : GatherDims ⟨2, ![N, C]⟩ ⟨2, ![E, 1]⟩ ⟨2, ![E, C]⟩) (hdr : dr = GatherRows.rowDims N E C wfr)
    (dv : GatherDims ⟨1, ![N]⟩ ⟨2, ![E, 1]⟩ ⟨1, ![E]⟩) (hdv : dv = GatherVec.vecDims N E wfv)
    (hNcol : (⟨1, ![N]⟩ : Shape).BroadcastsInDim ⟨2, ![N, 1]⟩ ![0])
    (hNC : (⟨2, ![N, 1]⟩ : Shape).BroadcastsInDim ⟨2, ![N, C]⟩ ![0, 1])
    (hEcol : (⟨1, ![E]⟩ : Shape).BroadcastsInDim ⟨2, ![E, 1]⟩ ![0])
    (hEC : (⟨2, ![E, 1]⟩ : Shape).BroadcastsInDim ⟨2, ![E, C]⟩ ![0, 1])
    (z : FVec Ideal ⟨2, ![N, C]⟩ φ) (hz : ∀ i, (z i : EReal) = 0)
    (x : FVec Ideal ⟨2, ![N, C]⟩ φ) (s : FVec Ideal ⟨1, ![N]⟩ φ)
    (hs : ∀ n : Fin N, 0 ≤ (s (ix1 n) : EReal) ∧ (s (ix1 n) : EReal) ≠ ⊤)
    (src dst dstw : IVec ⟨2, ![E, 1]⟩ w)
    (hdst : ∀ (e : Fin E) (n : Fin N), (dst (ix2 e (0 : Fin 1))).toInt = (n.val : Int) →
      min (dstw (ix2 e (0 : Fin 1))).toInt.toNat (N - 1) = n.val) :
    mulf (F := Ideal) (φ := φ)
        (Host.scatterAdd ds z dst (Host.gather dr (mulf (F := Ideal) (φ := φ) x
          (broadcastInDim ⟨2, ![N, C]⟩ ![0, 1] hNC (broadcastInDim ⟨2, ![N, 1]⟩ ![0] hNcol s))) src))
        (broadcastInDim ⟨2, ![N, C]⟩ ![0, 1] hNC (broadcastInDim ⟨2, ![N, 1]⟩ ![0] hNcol s))
      = Host.scatterAdd ds z dst (mulf (F := Ideal) (φ := φ) (Host.gather dr x src)
          (broadcastInDim ⟨2, ![E, C]⟩ ![0, 1] hEC (broadcastInDim ⟨2, ![E, 1]⟩ ![0] hEcol
            (mulf (F := Ideal) (φ := φ) (Host.gather dv s src) (Host.gather dv s dstw))))) := by
  subst hds hdr hdv
  funext j
  obtain ⟨n, c, rfl⟩ : ∃ (n : Fin N) (c : Fin C), j = ix2 n c := ⟨j 0, j 1, eq_ix2 j⟩
  rw [mulf_apply, ScatterRows.host_scatterAdd_rows_apply wfs _ rfl, ScatterRows.host_scatterAdd_rows_apply wfs _ rfl,
    JoinIota.broadcast_column_apply, JoinIota.broadcast_vec_column_apply, hz]
  have hl : ∀ e : Fin E,
      Host.gather (GatherRows.rowDims N E C wfr) (mulf (F := Ideal) (φ := φ) x
          (broadcastInDim ⟨2, ![N, C]⟩ ![0, 1] hNC (broadcastInDim ⟨2, ![N, 1]⟩ ![0] hNcol s))) src (ix2 e c)
        = (x (ix2 ⟨min (src (ix2 e (0 : Fin 1))).toInt.toNat (N - 1), by omega⟩ c) : EReal)
          * s (ix1 ⟨min (src (ix2 e (0 : Fin 1))).toInt.toNat (N - 1), by omega⟩) := by
    intro e
    rw [GatherRows.gather_rows_apply hN, mulf_apply, JoinIota.broadcast_column_apply,
      JoinIota.broadcast_vec_column_apply]
  have hr : ∀ e : Fin E,
      mulf (F := Ideal) (φ := φ) (Host.gather (GatherRows.rowDims N E C wfr) x src)
          (broadcastInDim ⟨2, ![E, C]⟩ ![0, 1] hEC (broadcastInDim ⟨2, ![E, 1]⟩ ![0] hEcol
            (mulf (F := Ideal) (φ := φ) (Host.gather (GatherVec.vecDims N E wfv) s src)
              (Host.gather (GatherVec.vecDims N E wfv) s dstw)))) (ix2 e c)
        = (x (ix2 ⟨min (src (ix2 e (0 : Fin 1))).toInt.toNat (N - 1), by omega⟩ c) : EReal)
          * (s (ix1 ⟨min (src (ix2 e (0 : Fin 1))).toInt.toNat (N - 1), by omega⟩)
              * s (ix1 ⟨min (dstw (ix2 e (0 : Fin 1))).toInt.toNat (N - 1), by omega⟩)) := by
    intro e
    rw [mulf_apply, GatherRows.gather_rows_apply hN, JoinIota.broadcast_column_apply,
      JoinIota.broadcast_vec_column_apply, mulf_apply, GatherVec.gather_vec_apply hN, GatherVec.gather_vec_apply hN]
  simp only [hl, hr]
  refine ScaledSegments.segment_scale (fun e : Fin E => (dst (ix2 e (0 : Fin 1))).toInt = (n.val : Int))
    (fun e => (x (ix2 ⟨min (src (ix2 e (0 : Fin 1))).toInt.toNat (N - 1), by omega⟩ c) : EReal))
    (fun e => (s (ix1 ⟨min (src (ix2 e (0 : Fin 1))).toInt.toNat (N - 1), by omega⟩) : EReal))
    (fun e => (s (ix1 ⟨min (src (ix2 e (0 : Fin 1))).toInt.toNat (N - 1), by omega⟩) : EReal)
      * s (ix1 ⟨min (dstw (ix2 e (0 : Fin 1))).toInt.toNat (N - 1), by omega⟩))
    (hs n).1 (hs n).2 fun e he => ?_
  have hn : (⟨min (dstw (ix2 e (0 : Fin 1))).toInt.toNat (N - 1), by omega⟩ : Fin N) = n := Fin.ext (hdst e n he)
  rw [hn, mul_one]

end Cert.SeparableNorm

end
-- ==== Proof.Bridge1.lean ====
/-
  The two programs compute the same node embedding.

  Write s for the node factors (nonnegative reals, whatever the degrees: the reciprocal root of a positive degree, 0
  elsewhere), xw for x·w, and for an edge e write src e for the row its start names (a negative number wrapped, then
  clamped into range) and dst e for the node its end names. The kernel program forms, at (n, c),

      (∑_{e : dst e = n} (xw(src e, c) · s(src e))) · s(n) + b(c),

  the reference ∑_{e : dst e = n} xw(src e, c) · (s(src e) · s(dst' e)) + b(c), where dst' e is the end looked up as a
  row (wrapped and clamped). An edge that lands on node n has a nonnegative in-range end, which wrapping and clamping
  leave alone, so dst' e = n there; and a nonnegative finite factor moves across a finite sum of extended reals. No
  finiteness of x, w or b is needed.
-/
import proofs.«180158_j33303176413370_2_alg».proof.Proof.KerTerm
import proofs.«180158_j33303176413370_2_alg».proof.Proof.RefTerm
import proofs.«180158_j33303176413370_2_alg».proof.Proof.LibSeparableNorm
import proofs.«180158_j33303176413370_2_alg».proof.Proof.LibPlainDot
import proofs.«180158_j33303176413370_2_alg».proof.Proof.LibColumns
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx

/-! ## The stages the two programs share are the same functions -/

theorem edgeStarts_eq (x1 : (⟨Cert.ReferenceIdeal.S2x1600000, .i32⟩ : BufTy).Contents (Elt Ideal)) : Cert.KernelIdeal.Term.edgeStarts x1 = Cert.ReferenceIdeal.Term.edgeStarts (F := Ideal) x1 := rfl
theorem edgeEnds_eq (x1 : (⟨Cert.ReferenceIdeal.S2x1600000, .i32⟩ : BufTy).Contents (Elt Ideal)) : Cert.KernelIdeal.Term.edgeEnds x1 = Cert.ReferenceIdeal.Term.edgeEnds (F := Ideal) x1 := rfl
theorem wrapCol_eq (v : (⟨Cert.ReferenceIdeal.S1700000, .i32⟩ : BufTy).Contents (Elt Ideal)) : Cert.KernelIdeal.Term.wrapCol v = Cert.ReferenceIdeal.Term.wrapCol (F := Ideal) v := rfl
theorem rawCol_eq (v : (⟨Cert.ReferenceIdeal.S1700000, .i32⟩ : BufTy).Contents (Elt Ideal)) : Cert.KernelIdeal.Term.rawCol v = Cert.ReferenceIdeal.Term.rawCol (F := Ideal) v := rfl
theorem nodeFactor_eq (x1 : (⟨Cert.ReferenceIdeal.S2x1600000, .i32⟩ : BufTy).Contents (Elt Ideal)) : Cert.KernelIdeal.Term.nodeFactor x1 = Cert.ReferenceIdeal.Term.nodeFactor (F := Ideal) x1 := rfl
theorem zeroRows_eq : Cert.KernelIdeal.Term.zeroRows = Cert.ReferenceIdeal.Term.zeroRows (F := Ideal) := rfl
theorem biasRows_eq (x4 : (⟨Cert.ReferenceIdeal.S128, .f32⟩ : BufTy).Contents (Elt Ideal)) : Cert.KernelIdeal.Term.biasRows x4 = Cert.ReferenceIdeal.Term.biasRows (F := Ideal) x4 := rfl

/-! ## Zeros, and the node factors -/

/-- The float zero spread over any shape reads 0 everywhere. -/
theorem splat_zero_apply {S : Shape} (h : (⟨0, ![]⟩ : Shape).BroadcastsInDim S ![]) (j : S.Idx) :
    (broadcastInDim S ![] h (constant (F := Ideal) ⟨0, ![]⟩ .f32 0x00000000#32) j : EReal) = 0 := by
  rw [broadcastInDim_apply _ h _ j (fun a => a.elim0) (fun a => a.elim0)]
  exact Ideal.ofBits_zero_f32

theorem zeroRows_apply (j : Cert.ReferenceIdeal.S100000x128.Idx) : (Cert.ReferenceIdeal.Term.zeroRows (F := Ideal) j : EReal) = 0 :=
  splat_zero_apply _ j

/-- The host's reciprocal square root of a vector, at an entry. -/
theorem host_rsqrt_apply {S : Shape} (v : FVec Ideal S .f32) (i : S.Idx) :
    (Host.rsqrt (F := Ideal) (φ := .f32) v i : EReal) = Ideal.rsqrt (v i) := rfl

/-- A node's factor is a nonnegative real, whatever its degree. -/
theorem nodeFactor_nonneg_ne_top (x1 : (⟨Cert.ReferenceIdeal.S2x1600000, .i32⟩ : BufTy).Contents (Elt Ideal)) (n : Fin 100000) :
    0 ≤ (Cert.ReferenceIdeal.Term.nodeFactor (F := Ideal) x1 (ix1 n) : EReal) ∧ (Cert.ReferenceIdeal.Term.nodeFactor (F := Ideal) x1 (ix1 n) : EReal) ≠ ⊤ := by
  have z : (broadcastInDim Cert.ReferenceIdeal.S100000 ![] Cert.ReferenceIdeal.Facts₀.bcast_S_S100000 (constant (F := Ideal) Cert.ReferenceIdeal.S_ .f32 0x00000000#32) (ix1 n) : EReal) = 0 :=
    splat_zero_apply _ _
  have z' : (broadcastInDim Cert.ReferenceIdeal.S100000 ![] Cert.ReferenceIdeal.Facts₀.bcast_S_S100000 (id (constant (F := Ideal) Cert.ReferenceIdeal.S_ .f32 0x00000000#32)) (ix1 n) : EReal) = 0 :=
    splat_zero_apply _ _
  have e : (Cert.ReferenceIdeal.Term.nodeFactor (F := Ideal) x1 (ix1 n) : EReal)
      = Scalar.select (Ideal.cmp .ogt (Cert.ReferenceIdeal.Term.degree (F := Ideal) x1 (ix1 n)) 0) (Ideal.rsqrt (Cert.ReferenceIdeal.Term.degree (F := Ideal) x1 (ix1 n))) (0 : EReal) := by
    unfold Cert.ReferenceIdeal.Term.nodeFactor
    rw [select_apply, cmpf_apply, z, z', host_rsqrt_apply, Ideal.cmpf_def]
  rw [e]
  exact ScaledSegments.select_rsqrt_nonneg_ne_top _

/-! ## x·w at an entry, and the kernel's scaled rows as a product of whole arrays -/

theorem xw_apply (x0 : (⟨Cert.ReferenceIdeal.S100000x128, .f32⟩ : BufTy).Contents (Elt Ideal)) (x3 : (⟨Cert.ReferenceIdeal.S128x128, .f32⟩ : BufTy).Contents (Elt Ideal)) (p : Fin 100000) (c : Fin 128) :
    (Host.dotGeneral (F := Ideal) (φ₁ := .f32) (φ₂ := .f32) Cert.ReferenceIdeal.dot_S100000x128_S128x128_S100000x128_1_0_0_1_n_n none x0 x3 (ix2 p c) : EReal)
      = ∑ k : Fin 128, (x0 (ix2 p k) : EReal) * (x3 (ix2 k c) : EReal) := by
  simp only [Host.dotGeneral]
  exact Cert.PlainDot.dotGeneral_apply Cert.ReferenceIdeal.dot_S100000x128_S128x128_S100000x128_1_0_0_1_n_n rfl rfl
    (fun i q => by
      unfold DotDims.lhsIdx
      rw [dif_neg (show ¬(0 : Fin Cert.ReferenceIdeal.S100000x128.rank) ∈ Cert.ReferenceIdeal.dot_S100000x128_S128x128_S100000x128_1_0_0_1_n_n.lhsBatch by decide),
        dif_pos (show (0 : Fin Cert.ReferenceIdeal.S100000x128.rank) ∈ Cert.ReferenceIdeal.dot_S100000x128_S128x128_S100000x128_1_0_0_1_n_n.lhsNonContracting by decide)]
      rfl)
    (fun i q => Cert.ReferenceIdeal.dot_S100000x128_S128x128_S100000x128_1_0_0_1_n_n.lhsIdx_val_of_single rfl i q)
    (fun i q => Cert.ReferenceIdeal.dot_S100000x128_S128x128_S100000x128_1_0_0_1_n_n.rhsIdx_val_of_single rfl i q)
    (fun i q => by
      unfold DotDims.rhsIdx
      rw [dif_neg (show ¬(1 : Fin Cert.ReferenceIdeal.S128x128.rank) ∈ Cert.ReferenceIdeal.dot_S100000x128_S128x128_S100000x128_1_0_0_1_n_n.rhsBatch by decide),
        dif_pos (show (1 : Fin Cert.ReferenceIdeal.S128x128.rank) ∈ Cert.ReferenceIdeal.dot_S100000x128_S128x128_S100000x128_1_0_0_1_n_n.rhsNonContracting by decide)]
      rfl)
    none _ x0 x3 p c

/-- The factors as a column of the kernel program (a recast) and as the two spreads the law is stated with. -/
theorem factorCol_spread (s : (⟨Cert.ReferenceIdeal.S100000, .f32⟩ : BufTy).Contents (Elt Ideal)) (h1 : Cert.ReferenceIdeal.S100000.ShapeCasts ⟨2, ![100000, 1]⟩)
    (h2 : (⟨2, ![100000, 1]⟩ : Shape).BroadcastsInDim ⟨2, ![100000, 128]⟩ ![0, 1])
    (h3 : (⟨1, ![100000]⟩ : Shape).BroadcastsInDim ⟨2, ![100000, 1]⟩ ![0]) :
    broadcastInDim ⟨2, ![100000, 128]⟩ ![0, 1] h2 (shapeCast ⟨2, ![100000, 1]⟩ s h1)
      = broadcastInDim ⟨2, ![100000, 128]⟩ ![0, 1] h2 (broadcastInDim ⟨2, ![100000, 1]⟩ ![0] h3 s) := by
  funext j
  obtain ⟨n, c, rfl⟩ : ∃ (n : Fin 100000) (c : Fin 128), j = ix2 n c := ⟨j 0, j 1, eq_ix2 j⟩
  rw [JoinIota.broadcast_column_apply, JoinIota.broadcast_column_apply, JoinIota.broadcast_vec_column_apply,
    Cert.LibColumns.shapeCast_a_a1_apply]

/-- Row n of x·w scaled by node n's factor, as the product of x·w with the factors spread over the rows. -/
theorem scaledProduct_spread (x0 : (⟨Cert.ReferenceIdeal.S100000x128, .f32⟩ : BufTy).Contents (Elt Ideal)) (x3 : (⟨Cert.ReferenceIdeal.S128x128, .f32⟩ : BufTy).Contents (Elt Ideal)) (s : (⟨Cert.ReferenceIdeal.S100000, .f32⟩ : BufTy).Contents (Elt Ideal))
    (h1 : Cert.ReferenceIdeal.S100000.ShapeCasts ⟨2, ![100000, 1]⟩)
    (h2 : (⟨2, ![100000, 1]⟩ : Shape).BroadcastsInDim ⟨2, ![100000, 128]⟩ ![0, 1])
    (h3 : (⟨1, ![100000]⟩ : Shape).BroadcastsInDim ⟨2, ![100000, 1]⟩ ![0]) :
    Cert.Spec.scaledProduct x0 x3 (shapeCast ⟨2, ![100000, 1]⟩ s h1)
      = mulf (F := Ideal) (φ := .f32) (Host.dotGeneral (F := Ideal) (φ₁ := .f32) (φ₂ := .f32) Cert.ReferenceIdeal.dot_S100000x128_S128x128_S100000x128_1_0_0_1_n_n none x0 x3)
          (broadcastInDim ⟨2, ![100000, 128]⟩ ![0, 1] h2 (broadcastInDim ⟨2, ![100000, 1]⟩ ![0] h3 s)) := by
  funext j
  obtain ⟨n, c, rfl⟩ : ∃ (n : Fin 100000) (c : Fin 128), j = ix2 n c := ⟨j 0, j 1, eq_ix2 j⟩
  rw [Cert.Spec.scaledProduct_apply, mulf_apply, xw_apply, JoinIota.broadcast_column_apply,
    JoinIota.broadcast_vec_column_apply, Cert.LibColumns.shapeCast_a_a1_apply]

/-! ## An edge that lands on node n is looked up at row n -/

theorem lands_on (v : (⟨Cert.ReferenceIdeal.S1700000, .i32⟩ : BufTy).Contents (Elt Ideal)) (e : Fin 1700000) (n : Fin 100000)
    (h : (Cert.ReferenceIdeal.Term.rawCol (F := Ideal) v (ix2 e (0 : Fin 1))).toInt = (n.val : Int)) :
    min (Cert.ReferenceIdeal.Term.wrapCol (F := Ideal) v (ix2 e (0 : Fin 1))).toInt.toNat (100000 - 1) = n.val := by
  unfold Cert.ReferenceIdeal.Term.rawCol at h
  unfold Cert.ReferenceIdeal.Term.wrapCol
  rw [JoinIota.broadcast_vec_column_apply] at h
  rw [JoinIota.broadcast_vec_column_apply, JoinIota.wrap_index_of_nonneg _ _ _ _ (by rw [h]; exact Int.natCast_nonneg _), h]
  have := n.isLt
  omega

/-! ## The node embeddings agree -/

theorem nodes_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    Cert.KernelIdeal.Term.nodesKer x0 x1 x3 x4 = Cert.ReferenceIdeal.Term.nodesRef (F := Ideal) x0 x1 x3 x4 := by
  have key := SeparableNorm.aggregate_scaled_rows (N := 100000) (E := 1700000) (C := 128) (w := 32) (φ := .f32) (by decide)
    Cert.ReferenceIdeal.Facts₀.scatter_S100000x128_S1700000x1_S1700000x128_1_0_0_1_wf
    Cert.ReferenceIdeal.Facts₀.gather_S100000x128_S1700000x1_S1700000x128_1_0_n_n_0_1_1128_wf
    Cert.ReferenceIdeal.Facts₀.gather_S100000_S1700000x1_S1700000_n_0_n_n_0_1_1_wf
    Cert.ReferenceIdeal.scatter_S100000x128_S1700000x1_S1700000x128_1_0_0_1 rfl
    Cert.ReferenceIdeal.gather_S100000x128_S1700000x1_S1700000x128_1_0_n_n_0_1_1128 rfl
    Cert.ReferenceIdeal.gather_S100000_S1700000x1_S1700000_n_0_n_n_0_1_1 rfl
    (by decide) (by decide) Cert.ReferenceIdeal.Facts₀.bcast_S1700000_S1700000x1_0 Cert.ReferenceIdeal.Facts₀.bcast_S1700000x1_S1700000x128_0_1
    (Cert.ReferenceIdeal.Term.zeroRows (F := Ideal)) zeroRows_apply
    (Host.dotGeneral (F := Ideal) (φ₁ := .f32) (φ₂ := .f32) Cert.ReferenceIdeal.dot_S100000x128_S128x128_S100000x128_1_0_0_1_n_n none x0 x3)
    (Cert.ReferenceIdeal.Term.nodeFactor (F := Ideal) x1) (nodeFactor_nonneg_ne_top x1)
    (Cert.ReferenceIdeal.Term.wrapCol (F := Ideal) (Cert.ReferenceIdeal.Term.edgeStarts (F := Ideal) x1)) (Cert.ReferenceIdeal.Term.rawCol (F := Ideal) (Cert.ReferenceIdeal.Term.edgeEnds (F := Ideal) x1))
    (Cert.ReferenceIdeal.Term.wrapCol (F := Ideal) (Cert.ReferenceIdeal.Term.edgeEnds (F := Ideal) x1))
    (fun e n h => lands_on _ e n h)
  unfold Cert.KernelIdeal.Term.nodesKer Cert.KernelIdeal.Term.scaledRows Cert.KernelIdeal.Term.factorCol Cert.ReferenceIdeal.Term.nodesRef
  rw [edgeStarts_eq, edgeEnds_eq, wrapCol_eq, rawCol_eq, nodeFactor_eq, zeroRows_eq, biasRows_eq,
    scaledProduct_spread x0 x3 _ _ (by decide) (by decide), factorCol_spread _ _ (by decide) (by decide)]
  exact congrArg (fun t => addf (F := Ideal) t (Cert.ReferenceIdeal.Term.biasRows (F := Ideal) x4)) key

end Cert.Bridge

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.Bridge2.lean ====
/-
  The two programs score a candidate link the same way, from any table h of node embeddings.

  For link r with end rows a = h(i, ·) and b = h(j, ·), the reference forms the row [a | b] of 256 entries and takes
  ∑_{k < 256} [a | b](k) · W(k, o) + bias(o); the kernel program takes (∑_{k < 128} a(k) · W(k, o) + ∑_{k < 128} b(k) · W(128 + k, o)) + bias(o).
  A sum over 256 = 128 + 128 indices is the sum over the first 128 plus the sum over the last 128, on any commutative
  monoid: no finiteness is needed.
-/
import proofs.«180158_j33303176413370_2_alg».proof.Proof.KerTerm
import proofs.«180158_j33303176413370_2_alg».proof.Proof.RefTerm
import proofs.«180158_j33303176413370_2_alg».proof.Proof.LibPlainDot
import proofs.«180158_j33303176413370_2_alg».proof.Proof.LibConcatCols
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx

/-! ## The end rows are the same lookups in both programs -/

theorem endRows0_eq (h : (⟨Cert.ReferenceIdeal.S100000x128, .f32⟩ : BufTy).Contents (Elt Ideal)) (x2 : (⟨Cert.ReferenceIdeal.S2x200000, .i32⟩ : BufTy).Contents (Elt Ideal)) : Cert.KernelIdeal.Term.endRows0 h x2 = Cert.ReferenceIdeal.Term.endRows0 (F := Ideal) h x2 := rfl
theorem endRows1_eq (h : (⟨Cert.ReferenceIdeal.S100000x128, .f32⟩ : BufTy).Contents (Elt Ideal)) (x2 : (⟨Cert.ReferenceIdeal.S2x200000, .i32⟩ : BufTy).Contents (Elt Ideal)) : Cert.KernelIdeal.Term.endRows1 h x2 = Cert.ReferenceIdeal.Term.endRows1 (F := Ideal) h x2 := rfl

/-! ## The reference's product over the joined row, at an entry -/

theorem joined_dot_apply (a b : (⟨Cert.ReferenceIdeal.S200000x128, .f32⟩ : BufTy).Contents (Elt Ideal)) (x5 : (⟨Cert.ReferenceIdeal.S256x5, .f32⟩ : BufTy).Contents (Elt Ideal)) (r : Fin 200000) (o : Fin 5) :
    (Host.dotGeneral (F := Ideal) (φ₁ := .f32) (φ₂ := .f32) Cert.ReferenceIdeal.dot_S200000x256_S256x5_S200000x5_1_0_0_1_n_n none
        (concatenate Cert.ReferenceIdeal.S200000x256 1 [⟨Cert.ReferenceIdeal.S200000x128, a⟩, ⟨Cert.ReferenceIdeal.S200000x128, b⟩] Cert.ReferenceIdeal.Facts₀.concatenates_S200000x128_S200000x128_S200000x256_d1) x5 (ix2 r o) : EReal)
      = (∑ k : Fin 128, (a (ix2 r k) : EReal) * (x5 (ix2 (⟨k.val, by omega⟩ : Fin 256) o) : EReal))
        + ∑ k : Fin 128, (b (ix2 r k) : EReal) * (x5 (ix2 (⟨128 + k.val, by omega⟩ : Fin 256) o) : EReal) := by
  simp only [Host.dotGeneral]
  refine (Cert.PlainDot.dotGeneral_apply Cert.ReferenceIdeal.dot_S200000x256_S256x5_S200000x5_1_0_0_1_n_n rfl rfl
    (fun i q => by
      unfold DotDims.lhsIdx
      rw [dif_neg (show ¬(0 : Fin Cert.ReferenceIdeal.S200000x256.rank) ∈ Cert.ReferenceIdeal.dot_S200000x256_S256x5_S200000x5_1_0_0_1_n_n.lhsBatch by decide),
        dif_pos (show (0 : Fin Cert.ReferenceIdeal.S200000x256.rank) ∈ Cert.ReferenceIdeal.dot_S200000x256_S256x5_S200000x5_1_0_0_1_n_n.lhsNonContracting by decide)]
      rfl)
    (fun i q => Cert.ReferenceIdeal.dot_S200000x256_S256x5_S200000x5_1_0_0_1_n_n.lhsIdx_val_of_single rfl i q)
    (fun i q => Cert.ReferenceIdeal.dot_S200000x256_S256x5_S200000x5_1_0_0_1_n_n.rhsIdx_val_of_single rfl i q)
    (fun i q => by
      unfold DotDims.rhsIdx
      rw [dif_neg (show ¬(1 : Fin Cert.ReferenceIdeal.S256x5.rank) ∈ Cert.ReferenceIdeal.dot_S200000x256_S256x5_S200000x5_1_0_0_1_n_n.rhsBatch by decide),
        dif_pos (show (1 : Fin Cert.ReferenceIdeal.S256x5.rank) ∈ Cert.ReferenceIdeal.dot_S200000x256_S256x5_S200000x5_1_0_0_1_n_n.rhsNonContracting by decide)]
      rfl)
    none _ _ x5 r o).trans ?_
  rw [show (∑ k : Fin 256, (concatenate Cert.ReferenceIdeal.S200000x256 1 [⟨Cert.ReferenceIdeal.S200000x128, a⟩, ⟨Cert.ReferenceIdeal.S200000x128, b⟩] Cert.ReferenceIdeal.Facts₀.concatenates_S200000x128_S200000x128_S200000x256_d1 (ix2 r k) : EReal) * (x5 (ix2 k o) : EReal))
      = ∑ k : Fin (128 + 128), (concatenate Cert.ReferenceIdeal.S200000x256 1 [⟨Cert.ReferenceIdeal.S200000x128, a⟩, ⟨Cert.ReferenceIdeal.S200000x128, b⟩] Cert.ReferenceIdeal.Facts₀.concatenates_S200000x128_S200000x128_S200000x256_d1 (ix2 r (k : Fin 256)) : EReal) * (x5 (ix2 (k : Fin 256) o) : EReal) from rfl,
    Fin.sum_univ_add]
  congr 1
  · refine Finset.sum_congr rfl fun k _ => ?_
    rw [concatenate_cols_left (N := 256) a b _ r (Fin.castAdd 128 k) k rfl]
    rfl
  · refine Finset.sum_congr rfl fun k _ => ?_
    rw [concatenate_cols_right (N := 256) a b _ r (Fin.natAdd 128 k) k (by show k.val + 128 = 128 + k.val; omega)]
    rfl

/-! ## The scores agree -/

theorem scores_eq (h : (⟨Cert.ReferenceIdeal.S100000x128, .f32⟩ : BufTy).Contents (Elt Ideal)) (x2 : (⟨Cert.ReferenceIdeal.S2x200000, .i32⟩ : BufTy).Contents (Elt Ideal)) (x5 : (⟨Cert.ReferenceIdeal.S256x5, .f32⟩ : BufTy).Contents (Elt Ideal)) (x6 : (⟨Cert.ReferenceIdeal.S5, .f32⟩ : BufTy).Contents (Elt Ideal)) :
    Cert.KernelIdeal.Term.scoresKer h x2 x5 x6 = Cert.ReferenceIdeal.Term.scoresOf (F := Ideal) h x2 x5 x6 := by
  funext j
  obtain ⟨r, o, rfl⟩ : ∃ (r : Fin 200000) (o : Fin 5), j = ix2 r o := ⟨j 0, j 1, eq_ix2 j⟩
  unfold Cert.KernelIdeal.Term.scoresKer Cert.ReferenceIdeal.Term.scoresOf
  rw [Cert.Spec.pairProject_apply, addf_apply, endRows0_eq, endRows1_eq, joined_dot_apply]
  congr 1
  · congr 1
    · refine Finset.sum_congr rfl fun k _ => ?_
      rw [slice2_axis0_apply 0 x5 _ k o (⟨k.val, by omega⟩ : Fin 256) (by show k.val = 0 + k.val; omega)]
    · refine Finset.sum_congr rfl fun k _ => ?_
      rw [slice2_axis0_apply 128 x5 _ k o (⟨128 + k.val, by omega⟩ : Fin 256) rfl]
  · rw [shapeCast_a_1a_apply,
      broadcastInDim_apply _ Cert.ReferenceIdeal.Facts₀.bcast_S1x5_S200000x5_0_1 _ (ix2 r o) (ix2 (0 : Fin 1) o) (fun a => by
        match a with
        | ⟨0, _⟩ => show 0 = if (1 : Nat) = 1 then 0 else r.val; rw [if_pos rfl]
        | ⟨1, _⟩ => show o.val = if (5 : Nat) = 1 then 0 else o.val; rw [if_neg (by decide)]),
      broadcastInDim_apply _ Cert.ReferenceIdeal.Facts₀.bcast_S5_S1x5_1 _ (ix2 (0 : Fin 1) o) (ix1 o) (fun a => by
        match a with
        | ⟨0, _⟩ => show o.val = if (5 : Nat) = 1 then 0 else o.val; rw [if_neg (by decide)])]

end Cert.Bridge

end
-- ==== Proof.lean ====
/-
  The certificate of a link predictor over one graph convolution: a kernel program with two tiled dense products against
  its plain reference, on the extended reals.

  Both programs add self loops to the graph, count each node's degree d and take its factor s = d^(-1/2) (0 where d is not
  positive). The reference weights row src(e) of x·w by s(src e) · s(dst e) for every edge e and adds it into node dst(e);
  the kernel program scales row n of x·w by s(n) inside its first product, adds the scaled rows into the edges' ends
  and scales row n of the sums by s(n) once more. The factors are nonnegative reals whatever the degrees, so the second
  scaling moves across the finite sum of a node's incoming rows (the rows themselves may be anything): the two node
  embeddings agree. The reference scores a candidate link (i, j) by the joined row [h(i) | h(j)] against a 256 × 5 weight;
  the kernel program's second product multiplies h(i) and h(j) with the two halves of the weight and adds: a sum over 256
  indices split in two. Neither step needs the inputs finite, so the precondition is never opened.

  The three frames: the two kernel programs' are generated; the reference has no region, and its frame is its run with
  the result dropped. The ideal pass rewrote nothing, so the idealization claim is trivial.
-/
import proofs.«180158_j33303176413370_2_alg».proof.Defs
import proofs.«180158_j33303176413370_2_alg».proof.Proof.Gen.Kernel
import proofs.«180158_j33303176413370_2_alg».proof.Proof.Gen.Kernel.Skeleton
import proofs.«180158_j33303176413370_2_alg».proof.Proof.Gen.Kernel.Launch
import proofs.«180158_j33303176413370_2_alg».proof.Proof.Gen.Kernel.Points
import proofs.«180158_j33303176413370_2_alg».proof.Proof.Gen.Kernel.Frame
import proofs.«180158_j33303176413370_2_alg».proof.Proof.Gen.KernelIdeal
import proofs.«180158_j33303176413370_2_alg».proof.Proof.Gen.KernelIdeal.Skeleton
import proofs.«180158_j33303176413370_2_alg».proof.Proof.Gen.KernelIdeal.Launch
import proofs.«180158_j33303176413370_2_alg».proof.Proof.Gen.KernelIdeal.Points
import proofs.«180158_j33303176413370_2_alg».proof.Proof.Gen.KernelIdeal.Frame
import proofs.«180158_j33303176413370_2_alg».proof.Proof.Gen.ReferenceIdeal
import proofs.«180158_j33303176413370_2_alg».proof.Proof.Gen.Pre_finite_inputs
import proofs.«180158_j33303176413370_2_alg».proof.Proof.RefRun
import proofs.«180158_j33303176413370_2_alg».proof.Proof.RefTerm
import proofs.«180158_j33303176413370_2_alg».proof.Proof.KRun
import proofs.«180158_j33303176413370_2_alg».proof.Proof.HostK
import proofs.«180158_j33303176413370_2_alg».proof.Proof.Bridge1
import proofs.«180158_j33303176413370_2_alg».proof.Proof.Bridge2
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The scores of the reference's node embedding, of the arguments: the value both programs' result buffers end at. -/
abbrev scores (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v54) :=
  Cert.KernelIdeal.Term.scoresKer
    (Cert.KernelIdeal.Term.nodesKer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

/-- From memories agreeing on the arguments the two idealized programs end with the same scores: the kernel program's
    result buffer holds the scores of its node embedding, the reference's the scores of its own, and the two embeddings
    and the two ways of scoring agree. -/
theorem algebraic : Cert.algebraic_KernelIdeal_ReferenceIdeal := by
  intro m ρ m' ρ' _ hagree
  refine ⟨fun c => scores m c, ?_, ?_⟩
  · exact (θ_run Cert.KernelIdeal.defs _ _).mono
      (fun _ h c => ⟨(h c).1.trans (Cert.KernelIdeal.HostK.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6⟩ := hagree c
    rw [Cert.ReferenceIdeal.Term.res_eq, e0, e1, e2, e3, e4, e5, e6]
    exact ((Cert.Bridge.scores_eq _ _ _ _).trans (congrArg (fun h => Cert.ReferenceIdeal.Term.scoresOf (F := Ideal) h _ _ _)
      (Cert.Bridge.nodes_eq _ _ _ _))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
